-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S32x32 .f32) (main_arg5 : FVec F S32x32 .f32) (main_arg6 : FVec F S32x32 .f32) (main_arg7 : FVec F S32 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_v33

def fn {F : FTy → Type} [FloatOps F] (main_arg0 : FVec F S8192x32 .f32) (main_arg1 : FVec F S8192x8192 .f32) (main_arg2 : FVec F S8192x8192 .f32) (main_arg3 : FVec F S8192x8192 .f32) (main_arg4 : FVec F S32x32 .f32) (main_arg5 : FVec F S32x32 .f32) (main_arg6 : FVec F S32x32 .f32) (main_arg7 : FVec F S32 .f32) : IVec S_ 1 :=
  let main_v0 : FVec F S8192x32 .f32 := Host.absf main_arg0
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_v13 main_v16
-- ==== Kernel.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S32x96 : Shape := ⟨2, ![32, 96]⟩
abbrev S8192x96 : Shape := ⟨2, ![8192, 96]⟩
abbrev S1x32 : Shape := ⟨2, ![1, 32]⟩
abbrev S1024x2048 : Shape := ⟨2, ![1024, 2048]⟩
abbrev S2048x96 : Shape := ⟨2, ![2048, 96]⟩
abbrev S1024x32 : Shape := ⟨2, ![1024, 32]⟩
abbrev S2048x32 : Shape := ⟨2, ![2048, 32]⟩

abbrev nBuf : Space → Nat
  | .hbm => 12
  | .vmem => 12
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S32x96, .f32⟩
  | .hbm, ⟨9, _⟩ => ⟨S8192x96, .f32⟩
  | .hbm, ⟨10, _⟩ => ⟨S1x32, .f32⟩
  | .hbm, ⟨11, _⟩ => ⟨S8192x32, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S2048x96, .f32⟩
  | .local _ .vmem, ⟨7, _⟩ => ⟨S2048x96, .f32⟩
  | .local _ .vmem, ⟨8, _⟩ => ⟨S1x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  concatenates_S32x32_S32x32_S32x32_S32x96_d1 : Shape.Concatenates [S32x32, S32x32, S32x32] S32x96 1
  shapeCasts_S32_S1x32 : S32.ShapeCasts S1x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x96_S2048x96_0_0 : ∀ a, (![0, 0] : Fin 2 → Nat) a + S2048x96.size a ≤ S2048x96.size a
  h_S2048x96 : 0 < S2048x96.numel
  shapeCasts_S2048x96_S2048x96 : S2048x96.ShapeCasts S2048x96
  slices_S2048x96_o0_0_S2048x32 : S2048x96.Slices ![0, 0] S2048x32
  slices_S2048x96_o0_32_S2048x32 : S2048x96.Slices ![0, 32] S2048x32
  slices_S2048x96_o0_64_S2048x32 : S2048x96.Slices ![0, 64] S2048x32
  inb_S1024x2048_S1024x2048_0_0 : ∀ a, (![0, 0] : Fin 2 → Nat) a + S1024x2048.size a ≤ S1024x2048.size a
  h_S1024x2048 : 0 < S1024x2048.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  dot_S8192x32_S32x96_S8192x96_1_0_0_1_n_n_wf : DotDims.WF S8192x32 S32x96 S8192x96 [1] [0] [0] [1] [] []
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x96.size a ≤ S8192x96.size a
  hwx0_3 : ∀ i : grid0.Coords, EltTy.bits .f32 = 32 ∨ (Rect.block (s := S8192x96) S2048x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S8192x32.size a
  hwx0_5 : ∀ i : grid0.Coords, EltTy.bits .f32 = 32 ∨ (Rect.block (s := S8192x32) S1024x32.size (cc0_transform_5 i) (hinb0_5 i)).WholeWords (EltTy.packing .f32)

variable [Facts₀]

def dot_S8192x32_S32x96_S8192x96_1_0_0_1_n_n : DotDims S8192x32 S32x96 S8192x96 where
  lhsContracting := [1]
  rhsContracting := [0]
  lhsNonContracting := [0]
  rhsNonContracting := [1]
  lhsBatch := []
  rhsBatch := []
  wf := dot_S8192x32_S32x96_S8192x96_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x32 : Shape := ⟨2, ![8192, 32]⟩
abbrev S8192x8192 : Shape := ⟨2, ![8192, 8192]⟩
abbrev S32x32 : Shape := ⟨2, ![32, 32]⟩
abbrev S32 : Shape := ⟨1, ![32]⟩
abbrev S1x32 : Shape := ⟨2, ![1, 32]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S8192x8192, .f32⟩
  | .hbm, ⟨2, _⟩ => ⟨S8192x8192, .f32⟩
  | .hbm, ⟨3, _⟩ => ⟨S8192x8192, .f32⟩
  | .hbm, ⟨4, _⟩ => ⟨S32x32, .f32⟩
  | .hbm, ⟨5, _⟩ => ⟨S32x32, .f32⟩
  | .hbm, ⟨6, _⟩ => ⟨S32x32, .f32⟩
  | .hbm, ⟨7, _⟩ => ⟨S32, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S_, .f32⟩
  | .hbm, ⟨20, _⟩ => ⟨S8192x32, .f32⟩
  | .hbm, ⟨21, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  dot_S8192x32_S32x32_S8192x32_1_0_0_1_n_n_wf : DotDims.WF S8192x32 S32x32 S8192x32 [1] [0] [0] [1] [] []
  dot_S8192x8192_S8192x32_S8192x32_1_0_0_1_n_n_wf : DotDims.WF S8192x8192 S8192x32 S8192x32 [1] [0] [0] [1] [] []

variable [Facts₀]

def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.K.Around.lean ====
/-
  The aggregation kernel's region seen from outside, at any float instance.

  @main runs three host lines — the three 32×32 weight matrices joined side by side into one 32×96 matrix,
  the 8192×32 feature matrix times it, the bias recast to one row — and then the region: a grid of 8 × 4
  points (row tile i of 1024 rows, contraction tile k of 2048 columns, k innermost).  This module names what
  the region finds in every buffer (`V`), cuts @main there (`hmain`), names each window's block at a point
  (`iblk`), shows that an input's staging buffer holds its block at every point whether or not the pipeline
  fetched it there, decides the body's two branch conditions over the grid (k = 0 at the points ≡ 0 mod 4,
  k = 3 at the points ≡ 3 mod 4), and says where the result window is idle (everywhere but k = 3).
-/
import proofs.«181993_j39402029973527_2_alg».proof.Proof.Gen.Kernel.Launch
import proofs.«181993_j39402029973527_2_alg».proof.Proof.Gen.Kernel.Skeleton
import proofs.«181993_j39402029973527_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffer `b` holds when the region is entered: the launch contents after the three host lines. -/
abbrev V (c : Dev nD) (b : Ref sig .tc) : Buf (Elt F) ((c : Thread nD τ).loc b) :=
  StableHlo.after hostOps0 (fun b => m (c, b)) (Proc.devRef .tc b)

/-- The host lines allocate nothing. -/
theorem hostOps0_fresh : (hostOps0 : List (HloOp τ sig (Elt F))).Forall fun op => op.fresh = ∅ := by
  simp only [List.Forall]; repeat' constructor

/-- @main is the host lines followed by the region, which therefore starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- An input window whose body leaves its block in place holds that block at every point: where the pipeline
    does not fetch, the block index has not moved since the point before. One statement per input window. -/
theorem before_in0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_in3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_in4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
end Inputs

/-! ## The body's two branches, decided over the grid -/

/-- "This is the first contraction tile" (k = 0), as the body computes it from the point's coordinates. -/
abbrev isFirst (i : grid0.Coords) : Prop :=
  (Scalar.cmpi .ne (Scalar.extui (Scalar.cmpi .eq (BitVec.ofNat 32 (i 1).val) 0#32)) 0#32) = 1#1
/-- k = 0 exactly at the points ≡ 0 (mod 4): k is the inner grid axis, of extent 4. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction tile" (k = 3). -/
abbrev isLast (i : grid0.Coords) : Prop := k0_cond2 i = 1#1
/-- k = 3 exactly at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the result window is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- Before the last contraction tile the body stores nothing into the result window, -/
theorem idle5 : ∀ t : Fin cfg0.N, ¬isLast (grid0.coords t) → cfg0.idle 5 (grid0.coords t) = true := by decide +kernel
/-- and the pipeline does not write the window back there; -/
theorem noFlush5 : ∀ t : Fin cfg0.N, ¬isLast (grid0.coords t) → (cfg0.win 5).flush t = false := by decide +kernel
/-- at the last tile the body stores the finished rows. -/
theorem live5 : ∀ t : Fin cfg0.N, isLast (grid0.coords t) → cfg0.idle 5 (grid0.coords t) = false := by decide +kernel

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x32 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1024x32 .f32 := Memref.whole cc0_scratch0
/-- The views through which the accumulator's and the result window's contents are stated. -/
abbrev accV : View sig .tc .vmem S1024x32 .f32 := accM.view
abbrev outV : View sig .tc .vmem S1024x32 .f32 := (Memref.whole cc0_stg5_0 : Memref sig .tc .vmem S1024x32 .f32).view

/-- What a region of this shape may use without describing it: here, the accumulator at some contents and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Frame

end
-- ==== Proof.K.RunFirst.lean ====
/-
  The body at a point with k = 0 (the first contraction tile of a row tile): it zeroes the accumulator, adds
  this tile's three partial products into it, and leaves the result window alone.  Stated on any whole staging
  memrefs: the five inputs at given contents and handed back as found, the result window's buffer at given
  contents and handed back untouched, the accumulator at anything and left with the body's two stores written
  (the list of pieces is found when the run hands the buffer to the continuation).
-/
import proofs.«181993_j39402029973527_2_alg».proof.Proof.K.Around

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : isFirst i) (hc1 : ¬isLast i)
    (x0 x1 x2 : Vec F S1024x2048 .f32) (x3 : Vec F S2048x96 .f32) (x4 : Vec F S1x32 .f32) :
    { LS : List (View.Piece (Elt F) S1024x32 .f32) //
      ∀ (y5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, fun y5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.K.RunMiddle.lean ====
/-
  The body at a point with 0 < k < 3: it adds this tile's three partial products to what the accumulator holds
  from the point before, and leaves the result window alone.
-/
import proofs.«181993_j39402029973527_2_alg».proof.Proof.K.RunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMiddle (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : ¬isFirst i) (hc1 : ¬isLast i)
    (x0 x1 x2 : Vec F S1024x2048 .f32) (x3 : Vec F S2048x96 .f32) (x4 : Vec F S1x32 .f32) (xs : Vec F S1024x32 .f32) :
    { LS : List (View.Piece (Elt F) S1024x32 .f32) //
      ∀ (y5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, fun y5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Frame

end
-- ==== Proof.K.RunLast.lean ====
/-
  The body at a point with k = 3 (the last contraction tile): it adds this tile's three partial products to the
  accumulator, then stores max(accumulator + bias row, 0) over the whole result window.
-/
import proofs.«181993_j39402029973527_2_alg».proof.Proof.K.RunMiddle

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : ¬isFirst i) (hc1 : isLast i)
    (x0 x1 x2 : Vec F S1024x2048 .f32) (x3 : Vec F S2048x96 .f32) (x4 : Vec F S1x32 .f32) (xs : Vec F S1024x32 .f32) :
    Σ' (L5 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Frame

end
-- ==== Proof.K.Frame.lean ====
/-
  The frame of the aggregation kernel, at any float instance.

  A row tile i is visited at four consecutive points t = 4i + k, k = 0..3.  The body keeps a running sum in a
  scratch accumulator: zeroed at k = 0, increased by the tile's three partial products at every k, and at k = 3
  turned into max(sum + bias, 0) and stored over the result window, which the pipeline writes back only there.
  So the invariant between points says what the accumulator holds (`contents`, by recursion on the point: the
  case of the point applied to what the point before left), the proof data says each input buffer holds its
  block and the result buffer holds `contents`' first component, and the body obligation is a case split on
  t mod 4 with the matching run of the body.  The run of @main follows from the library's frame theorem with a
  tracked invariant, and the frame claim from reading its post at the eight argument arrays.
-/
import proofs.«181993_j39402029973527_2_alg».proof.Proof.K.RunLast

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem first_of (t : Fin cfg0.N) (h0 : t.val % 4 = 0) : isFirst (grid0.coords t) := (isFirst_iff t).mpr h0
theorem notFirst_of (t : Fin cfg0.N) (h0 : ¬t.val % 4 = 0) : ¬isFirst (grid0.coords t) := fun h => h0 ((isFirst_iff t).mp h)
theorem last_of (t : Fin cfg0.N) (h1 : t.val % 4 = 3) : isLast (grid0.coords t) := (isLast_iff t).mpr h1
theorem notLast_of (t : Fin cfg0.N) (h1 : ¬t.val % 4 = 3) : ¬isLast (grid0.coords t) := fun h => h1 ((isLast_iff t).mp h)
theorem ne3_of_0 {n : ℕ} (h0 : n % 4 = 0) : ¬n % 4 = 3 := by omega
theorem ne0_of_3 {n : ℕ} (h1 : n % 4 = 3) : ¬n % 4 = 0 := by omega

/-! ## The body's runs at a point of the grid, on the memrefs and blocks of that point -/

abbrev firstAt (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) accM (Memref.isWhole_whole _) (first_of t h0) (notLast_of t (ne3_of_0 h0)) (iblk m c 0 t) (iblk m c 1 t) (iblk m c 2 t) (iblk m c 3 t) (iblk m c 4 t)
abbrev middleAt (c : Dev nD) (t : Fin cfg0.N) (h0 : ¬t.val % 4 = 0) (h1 : ¬t.val % 4 = 3) (xs : Vec F S1024x32 .f32) :=
  runMiddle (F := F) c (grid0.coords t) (ms0 t) (hs0 t) (ms1 t) (hs1 t) (ms2 t) (hs2 t) (ms3 t) (hs3 t) (ms4 t) (hs4 t) (ms5 t) (hs5 t) accM (Memref.isWhole_whole _) (notFirst_of t h0) (notLast_of t h1) (iblk m c 0 t) (iblk m c 1 t) (iblk m c 2 t) (iblk m c 3 t) (iblk m c 4 t) xs
abbrev lastAt (c : Dev nD) (t : Fin cfg0.N) (h1 : t.val % 4 = 3) (xs : Vec F S1024x32 .f32) :=
  runLast (F := F) c (grid0.coords t) (ms0 t) (hs0 t) (ms1 t) (hs1 t) (ms2 t) (hs2 t) (ms3 t) (hs3 t) (ms4 t) (hs4 t) (ms5 t) (hs5 t) accM (Memref.isWhole_whole _) (notFirst_of t (ne0_of_3 h1)) (last_of t h1) (iblk m c 0 t) (iblk m c 1 t) (iblk m c 2 t) (iblk m c 3 t) (iblk m c 4 t) xs

/-- The stores of each case cover the buffer they go to (each is one store of the whole 1024×32 rectangle,
    the first case's accumulator two of them). -/
theorem cover_first (c : Dev nD) (t : Fin cfg0.N) (h0 : t.val % 4 = 0) (y : S1024x32.Idx) :
    ∃ pc ∈ (firstAt m c t h0).1, y ∈ pc.1.set :=
  View.cover_of_tiledL (firstAt m c t h0).1 S1024x32.size (by sl_kernel_rfl) y
theorem cover_middle (c : Dev nD) (t : Fin cfg0.N) (h0 : ¬t.val % 4 = 0) (h1 : ¬t.val % 4 = 3) (xs : Vec F S1024x32 .f32) (y : S1024x32.Idx) :
    ∃ pc ∈ (middleAt m c t h0 h1 xs).1, y ∈ pc.1.set :=
  View.cover_of_tiledL (middleAt m c t h0 h1 xs).1 S1024x32.size (by sl_kernel_rfl) y
theorem cover_last_acc (c : Dev nD) (t : Fin cfg0.N) (h1 : t.val % 4 = 3) (xs : Vec F S1024x32 .f32) (y : S1024x32.Idx) :
    ∃ pc ∈ (lastAt m c t h1 xs).2.1, y ∈ pc.1.set :=
  View.cover_of_tiledL (lastAt m c t h1 xs).2.1 S1024x32.size (by sl_kernel_rfl) y
theorem cover_last_out (c : Dev nD) (t : Fin cfg0.N) (h1 : t.val % 4 = 3) (xs : Vec F S1024x32 .f32) (y : S1024x32.Idx) :
    ∃ pc ∈ (lastAt m c t h1 xs).1, y ∈ pc.1.set :=
  View.cover_of_tiledL (lastAt m c t h1 xs).1 S1024x32.size (by sl_kernel_rfl) y

/-- What each case leaves in the accumulator, and the last case in the result window: its stores read back. -/
def accFirst (c : Dev nD) (t : Fin cfg0.N) (h0 : t.val % 4 = 0) : Vec F S1024x32 .f32 :=
  accV.read (Elt F) (accV.writes (Elt F) accV.junk (firstAt m c t h0).1)
def accMiddle (c : Dev nD) (t : Fin cfg0.N) (h0 : ¬t.val % 4 = 0) (h1 : ¬t.val % 4 = 3) (xs : Vec F S1024x32 .f32) : Vec F S1024x32 .f32 :=
  accV.read (Elt F) (accV.writes (Elt F) accV.junk (middleAt m c t h0 h1 xs).1)
def accLast (c : Dev nD) (t : Fin cfg0.N) (h1 : t.val % 4 = 3) (xs : Vec F S1024x32 .f32) : Vec F S1024x32 .f32 :=
  accV.read (Elt F) (accV.writes (Elt F) accV.junk (lastAt m c t h1 xs).2.1)
def outLast (c : Dev nD) (t : Fin cfg0.N) (h1 : t.val % 4 = 3) (xs : Vec F S1024x32 .f32) : Vec F S1024x32 .f32 :=
  outV.read (Elt F) (outV.writes (Elt F) outV.junk (lastAt m c t h1 xs).1)
/-- Where the body stores nothing into the result window its first component is never consulted. -/
def untouched : Vec F S1024x32 .f32 := outV.read (Elt F) outV.junk

/-! ## What the result window and the accumulator hold after each point -/

/-- After position `n`: (result window's staging buffer, accumulator). -/
def contents (c : Dev nD) : (n : ℕ) → n < cfg0.N → Vec F S1024x32 .f32 × Vec F S1024x32 .f32
  | 0, hn => (untouched, accFirst m c ⟨0, hn⟩ (Nat.zero_mod _))
  | n + 1, hn =>
    if h0 : (n + 1) % 4 = 0 then (untouched, accFirst m c ⟨n + 1, hn⟩ h0)
    else if h1 : (n + 1) % 4 = 3 then
      (outLast m c ⟨n + 1, hn⟩ h1 (contents c n (Nat.lt_of_succ_lt hn)).2, accLast m c ⟨n + 1, hn⟩ h1 (contents c n (Nat.lt_of_succ_lt hn)).2)
    else (untouched, accMiddle m c ⟨n + 1, hn⟩ h0 h1 (contents c n (Nat.lt_of_succ_lt hn)).2)

/-- What the point before `t` left in the accumulator. -/
abbrev prevAcc (c : Dev nD) (t : Fin cfg0.N) : Vec F S1024x32 .f32 :=
  (contents m c (t.val - 1) (Nat.lt_of_le_of_lt (Nat.sub_le _ _) t.isLt)).2

theorem contents_first (c : Dev nD) (t : Fin cfg0.N) (h0 : t.val % 4 = 0) :
    contents m c t.val t.isLt = (untouched, accFirst m c t h0) := by
  obtain ⟨n, hn⟩ := t
  cases n with
  | zero => rfl
  | succ n => exact dif_pos h0
theorem contents_middle (c : Dev nD) (t : Fin cfg0.N) (h0 : ¬t.val % 4 = 0) (h1 : ¬t.val % 4 = 3) :
    contents m c t.val t.isLt = (untouched, accMiddle m c t h0 h1 (prevAcc m c t)) := by
  obtain ⟨n, hn⟩ := t
  cases n with
  | zero => exact absurd (Nat.zero_mod _) h0
  | succ n => exact (dif_neg h0).trans (dif_neg h1)
theorem contents_last (c : Dev nD) (t : Fin cfg0.N) (h1 : t.val % 4 = 3) :
    contents m c t.val t.isLt = (outLast m c t h1 (prevAcc m c t), accLast m c t h1 (prevAcc m c t)) := by
  obtain ⟨n, hn⟩ := t
  cases n with
  | zero => exact absurd h1 (by show ¬(0 % 4 = 3); decide)
  | succ n => exact (dif_neg (ne0_of_3 h1)).trans (dif_pos h1)

/-! ## The invariant between points -/

/-- Before position `n`: at the start the accumulator holds anything; afterwards what the point before left. -/
def Inv (c : Dev nD) : (n : ℕ) → n ≤ cfg0.N → sProp 𝕄
  | 0, _ => Pipeline.ΦA spec0 c
  | n + 1, hn => iprop(iprop(owns (c : Thread nD τ) accM fullShare ((contents m c n hn).2)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) accM fullShare ((contents m c n hn).2)) ∗ (∃ r, prngReg c r)) := rfl
theorem Inv_pos (c : Dev nD) (n : ℕ) (h : n ≤ cfg0.N) (hz : n ≠ 0) :
    Inv m c n h = iprop(iprop(owns (c : Thread nD τ) accM fullShare ((contents m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (contents m c t.val t.isLt).1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (contents m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- An input window is live at every point, so the body leaves its buffer at the block. -/
theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t) := by
  refine ⟨?_, ?_, ?_, ?_, ?_⟩
  · unfold Dat.leavesExact; rw [live0 t, after0]
  · unfold Dat.leavesExact; rw [live1 t, after1]
  · unfold Dat.leavesExact; rw [live2 t, after2]
  · unfold Dat.leavesExact; rw [live3 t, after3]
  · unfold Dat.leavesExact; rw [live4 t, after4]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Inv m c (t.val + 1) t.isLt from rfl, Inv_succ]
  obtain ⟨e0, e1, e2, e3, e4⟩ := leaves_in m c t
  rw [e0, e1, e2, e3, e4]
  have hN : t.val < 32 := lt_of_lt_of_eq t.isLt (show cfg0.N = 32 from N_0)
  by_cases h0 : t.val % 4 = 0
  · -- k = 0: the accumulator is at anything (first point) or at what the row tile before left; either way overwritten
    rw [Dat.leavesExact_idle (dats m 0 c) 5 t (idle5 t (notLast_of t (ne3_of_0 h0))) (noFlush5 t (notLast_of t (ne3_of_0 h0)))]
    rw [contents_first m c t h0]
    unfold accFirst; (try dsimp only)
    by_cases hz : t.val = 0
    · rw [Inv_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((firstAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((firstAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · -- k = 3: the result window is live and stored whole
      rw [show (dats m 0 c).leavesExact 5 t = owns (c : Thread nD τ) (ms5 t) fullShare ((dats m 0 c).after 5 t) from by
        unfold Dat.leavesExact; rw [live5 t (last_of t h1)], after5]
      rw [contents_last m c t h1]
      unfold outLast accLast; (try dsimp only)
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((lastAt m c t h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (cover_last_acc m c t h1 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_last_out m c t h1 _)
    · -- 0 < k < 3
      rw [Dat.leavesExact_idle (dats m 0 c) 5 t (idle5 t (notLast_of t h1)) (noFlush5 t (notLast_of t h1))]
      rw [contents_middle m c t h0 h1]
      unfold accMiddle; (try dsimp only)
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((middleAt m c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_middle m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = Inv m c (Fin.last cfg0.N).val (Nat.le_of_lt_succ (Fin.last cfg0.N).isLt) from rfl,
    Inv_pos m c _ _ hne, PhiA_eq]
  iintro ⟨HS, Hg⟩
  isplitl [HS]
  · iexists _; iexact HS
  iexact Hg

/-! ## The run -/

set_option backward.isDefEq.respectTransparency.types false in
/-- Every weakly fair execution of @main terminates without a fault; afterwards every array of the region holds
    what the proof data says and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Frame

end
-- ==== Proof.K.FrameClaim.lean ====
/-
  The frame claim of the aggregation kernel at any float instance: @main terminates without a fault and its eight
  argument arrays end as they began.  Three of them (the aggregation matrices) are arrays of input windows, which
  the region only reads; the other five (features, the three weight matrices, the bias) are read by the host
  lines only, and no host line writes an argument.
-/
import proofs.«181993_j39402029973527_2_alg».proof.Proof.K.Frame
import Idealize.ShloMosaic.Lib.StableHlo.Run

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines leave the arguments alone -/

theorem V_arg0 (c : Dev nD) : V m c main_arg0 = m ((c : Thread nD τ).loc main_arg0) := by
  dsimp only [V, hostOps0]; after_results <;> rfl
theorem V_arg1 (c : Dev nD) : V m c main_arg1 = m ((c : Thread nD τ).loc main_arg1) := by
  dsimp only [V, hostOps0]; after_results <;> rfl
theorem V_arg2 (c : Dev nD) : V m c main_arg2 = m ((c : Thread nD τ).loc main_arg2) := by
  dsimp only [V, hostOps0]; after_results <;> rfl
theorem V_arg3 (c : Dev nD) : V m c main_arg3 = m ((c : Thread nD τ).loc main_arg3) := by
  dsimp only [V, hostOps0]; after_results <;> rfl
theorem V_arg4 (c : Dev nD) : V m c main_arg4 = m ((c : Thread nD τ).loc main_arg4) := by
  dsimp only [V, hostOps0]; after_results <;> rfl
theorem V_arg5 (c : Dev nD) : V m c main_arg5 = m ((c : Thread nD τ).loc main_arg5) := by
  dsimp only [V, hostOps0]; after_results <;> rfl
theorem V_arg6 (c : Dev nD) : V m c main_arg6 = m ((c : Thread nD τ).loc main_arg6) := by
  dsimp only [V, hostOps0]; after_results <;> rfl
theorem V_arg7 (c : Dev nD) : V m c main_arg7 = m ((c : Thread nD τ).loc main_arg7) := by
  dsimp only [V, hostOps0]; after_results <;> rfl

/-- The arguments the region does not stage are among the buffers it leaves as found. -/
theorem rest_arg0 : main_arg0 ∈ Pipeline.restRefs sig spec0 := by decide
theorem rest_arg4 : main_arg4 ∈ Pipeline.restRefs sig spec0 := by decide
theorem rest_arg5 : main_arg5 ∈ Pipeline.restRefs sig spec0 := by decide
theorem rest_arg6 : main_arg6 ∈ Pipeline.restRefs sig spec0 := by decide
theorem rest_arg7 : main_arg7 ∈ Pipeline.restRefs sig spec0 := by decide

/-- The run with its post read at the result array and at the arguments. -/
theorem run_args :
    θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 5,
      ((h c).2 main_arg0 rest_arg0).trans (V_arg0 m c),
      ((h c).1 0).trans (((dats m 0 c).arrAt_in 0 rfl _).trans ((A_eq m c 0).trans (V_arg1 m c))),
      ((h c).1 1).trans (((dats m 0 c).arrAt_in 1 rfl _).trans ((A_eq m c 1).trans (V_arg2 m c))),
      ((h c).1 2).trans (((dats m 0 c).arrAt_in 2 rfl _).trans ((A_eq m c 2).trans (V_arg3 m c))),
      ((h c).2 main_arg4 rest_arg4).trans (V_arg4 m c),
      ((h c).2 main_arg5 rest_arg5).trans (V_arg5 m c),
      ((h c).2 main_arg6 rest_arg6).trans (V_arg6 m c),
      ((h c).2 main_arg7 rest_arg7).trans (V_arg7 m c)⟩) (run_main m ρ)

/-- The frame claim. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_args m ρ)

end Cert.Kernel.Frame

end
-- ==== Proof.KI.Around.lean ====
/-
  The aggregation kernel's region seen from outside, at any float instance.

  @main runs three host lines — the three 32×32 weight matrices joined side by side into one 32×96 matrix,
  the 8192×32 feature matrix times it, the bias recast to one row — and then the region: a grid of 8 × 4
  points (row tile i of 1024 rows, contraction tile k of 2048 columns, k innermost).  This module names what
  the region finds in every buffer (`V`), cuts @main there (`hmain`), names each window's block at a point
  (`iblk`), shows that an input's staging buffer holds its block at every point whether or not the pipeline
  fetched it there, decides the body's two branch conditions over the grid (k = 0 at the points ≡ 0 mod 4,
  k = 3 at the points ≡ 3 mod 4), and says where the result window is idle (everywhere but k = 3).
-/
import proofs.«181993_j39402029973527_2_alg».proof.Proof.Gen.KernelIdeal.Launch
import proofs.«181993_j39402029973527_2_alg».proof.Proof.Gen.KernelIdeal.Skeleton
import proofs.«181993_j39402029973527_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffer `b` holds when the region is entered: the launch contents after the three host lines. -/
abbrev V (c : Dev nD) (b : Ref sig .tc) : Buf (Elt F) ((c : Thread nD τ).loc b) :=
  StableHlo.after hostOps0 (fun b => m (c, b)) (Proc.devRef .tc b)

/-- The host lines allocate nothing. -/
theorem hostOps0_fresh : (hostOps0 : List (HloOp τ sig (Elt F))).Forall fun op => op.fresh = ∅ := by
  simp only [List.Forall]; repeat' constructor

/-- @main is the host lines followed by the region, which therefore starts from `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

section Inputs
variable {c : Dev nD} (dat : Dat τ (Elt F) Unit ℕ (UR sig nD τ) ℕ cfg0 c)

/-- An input window whose body leaves its block in place holds that block at every point: where the pipeline
    does not fetch, the block index has not moved since the point before. One statement per input window. -/
theorem before_in0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem before_in1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem before_in2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem before_in3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem before_in4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)
end Inputs

/-! ## The body's two branches, decided over the grid -/

/-- "This is the first contraction tile" (k = 0), as the body computes it from the point's coordinates. -/
abbrev isFirst (i : grid0.Coords) : Prop :=
  (Scalar.cmpi .ne (Scalar.extui (Scalar.cmpi .eq (BitVec.ofNat 32 (i 1).val) 0#32)) 0#32) = 1#1
/-- k = 0 exactly at the points ≡ 0 (mod 4): k is the inner grid axis, of extent 4. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction tile" (k = 3). -/
abbrev isLast (i : grid0.Coords) : Prop := k0_cond2 i = 1#1
/-- k = 3 exactly at the points ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-! ## Where the result window is idle -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
/-- Before the last contraction tile the body stores nothing into the result window, -/
theorem idle5 : ∀ t : Fin cfg0.N, ¬isLast (grid0.coords t) → cfg0.idle 5 (grid0.coords t) = true := by decide +kernel
/-- and the pipeline does not write the window back there; -/
theorem noFlush5 : ∀ t : Fin cfg0.N, ¬isLast (grid0.coords t) → (cfg0.win 5).flush t = false := by decide +kernel
/-- at the last tile the body stores the finished rows. -/
theorem live5 : ∀ t : Fin cfg0.N, isLast (grid0.coords t) → cfg0.idle 5 (grid0.coords t) = false := by decide +kernel

/-! ## The memrefs the body is called with -/

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x96 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x32 .f32 := win0_5.stage (cfg0.slots t 5)
abbrev hs5 (t : Fin cfg0.N) : (ms5 t).IsWhole := hstage0_5 ((cfg0.slots t 5).cast nbuf0_5)
/-- The accumulator: a whole scoped buffer of the kernel's own. -/
abbrev accM : Memref sig .tc .vmem S1024x32 .f32 := Memref.whole cc0_scratch0
/-- The views through which the accumulator's and the result window's contents are stated. -/
abbrev accV : View sig .tc .vmem S1024x32 .f32 := accM.view
abbrev outV : View sig .tc .vmem S1024x32 .f32 := (Memref.whole cc0_stg5_0 : Memref sig .tc .vmem S1024x32 .f32).view

/-- What a region of this shape may use without describing it: here, the accumulator at some contents and the
    generator register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Frame

end
-- ==== Proof.KI.RunFirst.lean ====
/-
  The body at a point with k = 0 (the first contraction tile of a row tile): it zeroes the accumulator, adds
  this tile's three partial products into it, and leaves the result window alone.  Stated on any whole staging
  memrefs: the five inputs at given contents and handed back as found, the result window's buffer at given
  contents and handed back untouched, the accumulator at anything and left with the body's two stores written
  (the list of pieces is found when the run hands the buffer to the continuation).
-/
import proofs.«181993_j39402029973527_2_alg».proof.Proof.KI.Around

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : isFirst i) (hc1 : ¬isLast i)
    (x0 x1 x2 : Vec F S1024x2048 .f32) (x3 : Vec F S2048x96 .f32) (x4 : Vec F S1x32 .f32) :
    { LS : List (View.Piece (Elt F) S1024x32 .f32) //
      ∀ (y5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, fun y5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.KI.RunMiddle.lean ====
/-
  The body at a point with 0 < k < 3: it adds this tile's three partial products to what the accumulator holds
  from the point before, and leaves the result window alone.
-/
import proofs.«181993_j39402029973527_2_alg».proof.Proof.KI.RunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMiddle (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : ¬isFirst i) (hc1 : ¬isLast i)
    (x0 x1 x2 : Vec F S1024x2048 .f32) (x3 : Vec F S2048x96 .f32) (x4 : Vec F S1x32 .f32) (xs : Vec F S1024x32 .f32) :
    { LS : List (View.Piece (Elt F) S1024x32 .f32) //
      ∀ (y5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, fun y5 E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Frame

end
-- ==== Proof.KI.RunLast.lean ====
/-
  The body at a point with k = 3 (the last contraction tile): it adds this tile's three partial products to the
  accumulator, then stores max(accumulator + bias row, 0) over the whole result window.
-/
import proofs.«181993_j39402029973527_2_alg».proof.Proof.KI.RunMiddle

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S1024x2048 .f32) (harg2 : arg2.IsWhole) (arg3 : Memref sig .tc .vmem S1024x2048 .f32) (harg3 : arg3.IsWhole) (arg4 : Memref sig .tc .vmem S1024x2048 .f32) (harg4 : arg4.IsWhole) (arg5 : Memref sig .tc .vmem S2048x96 .f32) (harg5 : arg5.IsWhole) (arg6 : Memref sig .tc .vmem S1x32 .f32) (harg6 : arg6.IsWhole) (arg7 : Memref sig .tc .vmem S1024x32 .f32) (harg7 : arg7.IsWhole) (arg8 : Memref sig .tc .vmem S1024x32 .f32) (harg8 : arg8.IsWhole) (hc0 : ¬isFirst i) (hc1 : isLast i)
    (x0 x1 x2 : Vec F S1024x2048 .f32) (x3 : Vec F S2048x96 .f32) (x4 : Vec F S1x32 .f32) (xs : Vec F S1024x32 .f32) :
    Σ' (L5 : List (View.Piece (Elt F) S1024x32 .f32)), { LS : List (View.Piece (Elt F) S1024x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__gnn_kernel i arg2 harg2 arg3 harg3 arg4 harg4 arg5 harg5 arg6 harg6 arg7 harg7 arg8 harg8) K } := by
  refine ⟨?_, ?_, fun E K => ?run⟩
  case run =>
    simp only [cc0__gnn_kernel_eq_skeleton]; unfold cc0__gnn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Frame

end
-- ==== Proof.KI.Frame.lean ====
/-
  The frame of the aggregation kernel, at any float instance.

  A row tile i is visited at four consecutive points t = 4i + k, k = 0..3.  The body keeps a running sum in a
  scratch accumulator: zeroed at k = 0, increased by the tile's three partial products at every k, and at k = 3
  turned into max(sum + bias, 0) and stored over the result window, which the pipeline writes back only there.
  So the invariant between points says what the accumulator holds (`contents`, by recursion on the point: the
  case of the point applied to what the point before left), the proof data says each input buffer holds its
  block and the result buffer holds `contents`' first component, and the body obligation is a case split on
  t mod 4 with the matching run of the body.  The run of @main follows from the library's frame theorem with a
  tracked invariant, and the frame claim from reading its post at the eight argument arrays.
-/
import proofs.«181993_j39402029973527_2_alg».proof.Proof.KI.RunLast

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem first_of (t : Fin cfg0.N) (h0 : t.val % 4 = 0) : isFirst (grid0.coords t) := (isFirst_iff t).mpr h0
theorem notFirst_of (t : Fin cfg0.N) (h0 : ¬t.val % 4 = 0) : ¬isFirst (grid0.coords t) := fun h => h0 ((isFirst_iff t).mp h)
theorem last_of (t : Fin cfg0.N) (h1 : t.val % 4 = 3) : isLast (grid0.coords t) := (isLast_iff t).mpr h1
theorem notLast_of (t : Fin cfg0.N) (h1 : ¬t.val % 4 = 3) : ¬isLast (grid0.coords t) := fun h => h1 ((isLast_iff t).mp h)
theorem ne3_of_0 {n : ℕ} (h0 : n % 4 = 0) : ¬n % 4 = 3 := by omega
theorem ne0_of_3 {n : ℕ} (h1 : n % 4 = 3) : ¬n % 4 = 0 := by omega

/-! ## The body's runs at a point of the grid, on the memrefs and blocks of that point -/

abbrev firstAt (c : Dev nD) (t : Fin cfg0.N) (h0 : t.val % 4 = 0) :=
  runFirst (F := F) c (grid0.coords t) (ms0 t) (hs0 t) (ms1 t) (hs1 t) (ms2 t) (hs2 t) (ms3 t) (hs3 t) (ms4 t) (hs4 t) (ms5 t) (hs5 t) accM (Memref.isWhole_whole _) (first_of t h0) (notLast_of t (ne3_of_0 h0)) (iblk m c 0 t) (iblk m c 1 t) (iblk m c 2 t) (iblk m c 3 t) (iblk m c 4 t)
abbrev middleAt (c : Dev nD) (t : Fin cfg0.N) (h0 : ¬t.val % 4 = 0) (h1 : ¬t.val % 4 = 3) (xs : Vec F S1024x32 .f32) :=
  runMiddle (F := F) c (grid0.coords t) (ms0 t) (hs0 t) (ms1 t) (hs1 t) (ms2 t) (hs2 t) (ms3 t) (hs3 t) (ms4 t) (hs4 t) (ms5 t) (hs5 t) accM (Memref.isWhole_whole _) (notFirst_of t h0) (notLast_of t h1) (iblk m c 0 t) (iblk m c 1 t) (iblk m c 2 t) (iblk m c 3 t) (iblk m c 4 t) xs
abbrev lastAt (c : Dev nD) (t : Fin cfg0.N) (h1 : t.val % 4 = 3) (xs : Vec F S1024x32 .f32) :=
  runLast (F := F) c (grid0.coords t) (ms0 t) (hs0 t) (ms1 t) (hs1 t) (ms2 t) (hs2 t) (ms3 t) (hs3 t) (ms4 t) (hs4 t) (ms5 t) (hs5 t) accM (Memref.isWhole_whole _) (notFirst_of t (ne0_of_3 h1)) (last_of t h1) (iblk m c 0 t) (iblk m c 1 t) (iblk m c 2 t) (iblk m c 3 t) (iblk m c 4 t) xs

/-- The stores of each case cover the buffer they go to (each is one store of the whole 1024×32 rectangle,
    the first case's accumulator two of them). -/
theorem cover_first (c : Dev nD) (t : Fin cfg0.N) (h0 : t.val % 4 = 0) (y : S1024x32.Idx) :
    ∃ pc ∈ (firstAt m c t h0).1, y ∈ pc.1.set :=
  View.cover_of_tiledL (firstAt m c t h0).1 S1024x32.size (by sl_kernel_rfl) y
theorem cover_middle (c : Dev nD) (t : Fin cfg0.N) (h0 : ¬t.val % 4 = 0) (h1 : ¬t.val % 4 = 3) (xs : Vec F S1024x32 .f32) (y : S1024x32.Idx) :
    ∃ pc ∈ (middleAt m c t h0 h1 xs).1, y ∈ pc.1.set :=
  View.cover_of_tiledL (middleAt m c t h0 h1 xs).1 S1024x32.size (by sl_kernel_rfl) y
theorem cover_last_acc (c : Dev nD) (t : Fin cfg0.N) (h1 : t.val % 4 = 3) (xs : Vec F S1024x32 .f32) (y : S1024x32.Idx) :
    ∃ pc ∈ (lastAt m c t h1 xs).2.1, y ∈ pc.1.set :=
  View.cover_of_tiledL (lastAt m c t h1 xs).2.1 S1024x32.size (by sl_kernel_rfl) y
theorem cover_last_out (c : Dev nD) (t : Fin cfg0.N) (h1 : t.val % 4 = 3) (xs : Vec F S1024x32 .f32) (y : S1024x32.Idx) :
    ∃ pc ∈ (lastAt m c t h1 xs).1, y ∈ pc.1.set :=
  View.cover_of_tiledL (lastAt m c t h1 xs).1 S1024x32.size (by sl_kernel_rfl) y

/-- What each case leaves in the accumulator, and the last case in the result window: its stores read back. -/
def accFirst (c : Dev nD) (t : Fin cfg0.N) (h0 : t.val % 4 = 0) : Vec F S1024x32 .f32 :=
  accV.read (Elt F) (accV.writes (Elt F) accV.junk (firstAt m c t h0).1)
def accMiddle (c : Dev nD) (t : Fin cfg0.N) (h0 : ¬t.val % 4 = 0) (h1 : ¬t.val % 4 = 3) (xs : Vec F S1024x32 .f32) : Vec F S1024x32 .f32 :=
  accV.read (Elt F) (accV.writes (Elt F) accV.junk (middleAt m c t h0 h1 xs).1)
def accLast (c : Dev nD) (t : Fin cfg0.N) (h1 : t.val % 4 = 3) (xs : Vec F S1024x32 .f32) : Vec F S1024x32 .f32 :=
  accV.read (Elt F) (accV.writes (Elt F) accV.junk (lastAt m c t h1 xs).2.1)
def outLast (c : Dev nD) (t : Fin cfg0.N) (h1 : t.val % 4 = 3) (xs : Vec F S1024x32 .f32) : Vec F S1024x32 .f32 :=
  outV.read (Elt F) (outV.writes (Elt F) outV.junk (lastAt m c t h1 xs).1)
/-- Where the body stores nothing into the result window its first component is never consulted. -/
def untouched : Vec F S1024x32 .f32 := outV.read (Elt F) outV.junk

/-! ## What the result window and the accumulator hold after each point -/

/-- After position `n`: (result window's staging buffer, accumulator). -/
def contents (c : Dev nD) : (n : ℕ) → n < cfg0.N → Vec F S1024x32 .f32 × Vec F S1024x32 .f32
  | 0, hn => (untouched, accFirst m c ⟨0, hn⟩ (Nat.zero_mod _))
  | n + 1, hn =>
    if h0 : (n + 1) % 4 = 0 then (untouched, accFirst m c ⟨n + 1, hn⟩ h0)
    else if h1 : (n + 1) % 4 = 3 then
      (outLast m c ⟨n + 1, hn⟩ h1 (contents c n (Nat.lt_of_succ_lt hn)).2, accLast m c ⟨n + 1, hn⟩ h1 (contents c n (Nat.lt_of_succ_lt hn)).2)
    else (untouched, accMiddle m c ⟨n + 1, hn⟩ h0 h1 (contents c n (Nat.lt_of_succ_lt hn)).2)

/-- What the point before `t` left in the accumulator. -/
abbrev prevAcc (c : Dev nD) (t : Fin cfg0.N) : Vec F S1024x32 .f32 :=
  (contents m c (t.val - 1) (Nat.lt_of_le_of_lt (Nat.sub_le _ _) t.isLt)).2

theorem contents_first (c : Dev nD) (t : Fin cfg0.N) (h0 : t.val % 4 = 0) :
    contents m c t.val t.isLt = (untouched, accFirst m c t h0) := by
  obtain ⟨n, hn⟩ := t
  cases n with
  | zero => rfl
  | succ n => exact dif_pos h0
theorem contents_middle (c : Dev nD) (t : Fin cfg0.N) (h0 : ¬t.val % 4 = 0) (h1 : ¬t.val % 4 = 3) :
    contents m c t.val t.isLt = (untouched, accMiddle m c t h0 h1 (prevAcc m c t)) := by
  obtain ⟨n, hn⟩ := t
  cases n with
  | zero => exact absurd (Nat.zero_mod _) h0
  | succ n => exact (dif_neg h0).trans (dif_neg h1)
theorem contents_last (c : Dev nD) (t : Fin cfg0.N) (h1 : t.val % 4 = 3) :
    contents m c t.val t.isLt = (outLast m c t h1 (prevAcc m c t), accLast m c t h1 (prevAcc m c t)) := by
  obtain ⟨n, hn⟩ := t
  cases n with
  | zero => exact absurd h1 (by show ¬(0 % 4 = 3); decide)
  | succ n => exact (dif_neg (ne0_of_3 h1)).trans (dif_pos h1)

/-! ## The invariant between points -/

/-- Before position `n`: at the start the accumulator holds anything; afterwards what the point before left. -/
def Inv (c : Dev nD) : (n : ℕ) → n ≤ cfg0.N → sProp 𝕄
  | 0, _ => Pipeline.ΦA spec0 c
  | n + 1, hn => iprop(iprop(owns (c : Thread nD τ) accM fullShare ((contents m c n hn).2)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) accM fullShare ((contents m c n hn).2)) ∗ (∃ r, prngReg c r)) := rfl
theorem Inv_pos (c : Dev nD) (n : ℕ) (h : n ≤ cfg0.N) (hz : n ≠ 0) :
    Inv m c n h = iprop(iprop(owns (c : Thread nD τ) accM fullShare ((contents m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (contents m c t.val t.isLt).1
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (contents m c t.val t.isLt).1 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- An input window is live at every point, so the body leaves its buffer at the block. -/
theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t) := by
  refine ⟨?_, ?_, ?_, ?_, ?_⟩
  · unfold Dat.leavesExact; rw [live0 t, after0]
  · unfold Dat.leavesExact; rw [live1 t, after1]
  · unfold Dat.leavesExact; rw [live2 t, after2]
  · unfold Dat.leavesExact; rw [live3 t, after3]
  · unfold Dat.leavesExact; rw [live4 t, after4]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Inv m c (t.val + 1) t.isLt from rfl, Inv_succ]
  obtain ⟨e0, e1, e2, e3, e4⟩ := leaves_in m c t
  rw [e0, e1, e2, e3, e4]
  have hN : t.val < 32 := lt_of_lt_of_eq t.isLt (show cfg0.N = 32 from N_0)
  by_cases h0 : t.val % 4 = 0
  · -- k = 0: the accumulator is at anything (first point) or at what the row tile before left; either way overwritten
    rw [Dat.leavesExact_idle (dats m 0 c) 5 t (idle5 t (notLast_of t (ne3_of_0 h0))) (noFlush5 t (notLast_of t (ne3_of_0 h0)))]
    rw [contents_first m c t h0]
    unfold accFirst; (try dsimp only)
    by_cases hz : t.val = 0
    · rw [Inv_castSucc m c t, Inv_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩⟩
      iapply ((firstAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((firstAt m c t h0).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_first m c t h0)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 4 = 3
    · -- k = 3: the result window is live and stored whole
      rw [show (dats m 0 c).leavesExact 5 t = owns (c : Thread nD τ) (ms5 t) fullShare ((dats m 0 c).after 5 t) from by
        unfold Dat.leavesExact; rw [live5 t (last_of t h1)], after5]
      rw [contents_last m c t h1]
      unfold outLast accLast; (try dsimp only)
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((lastAt m c t h1 _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · unfold owns; iexists _; isplitr
          swap; · iexact HS
          ipureintro; exact View.read_writes_of_cover _ _ _ _ _ (cover_last_acc m c t h1 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_last_out m c t h1 _)
    · -- 0 < k < 3
      rw [Dat.leavesExact_idle (dats m 0 c) 5 t (idle5 t (notLast_of t h1)) (noFlush5 t (notLast_of t h1))]
      rw [contents_middle m c t h0 h1]
      unfold accMiddle; (try dsimp only)
      rw [Inv_castSucc m c t, Inv_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply ((middleAt m c t h0 h1 _).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · unfold owns; iexists _; isplitr
          swap; · iexact HS
          ipureintro; exact View.read_writes_of_cover _ _ _ _ _ (cover_middle m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem hout (c : Dev nD) : (dats m 0 c).Φ (Fin.last cfg0.N) ⊢ Pipeline.ΦA spec0 c := by
  have hne : (Fin.last cfg0.N).val ≠ 0 := by rw [Fin.val_last]; have : cfg0.N = 32 := N_0; omega
  rw [show (dats m 0 c).Φ (Fin.last cfg0.N) = Inv m c (Fin.last cfg0.N).val (Nat.le_of_lt_succ (Fin.last cfg0.N).isLt) from rfl,
    Inv_pos m c _ _ hne, PhiA_eq]
  iintro ⟨HS, Hg⟩
  isplitl [HS]
  · iexists _; iexact HS
  iexact Hg

/-! ## The run -/

set_option backward.isDefEq.respectTransparency.types false in
/-- Every weakly fair execution of @main terminates without a fault; afterwards every array of the region holds
    what the proof data says and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Frame

end
-- ==== Proof.KI.FrameClaim.lean ====
/-
  The frame claim of the aggregation kernel at any float instance: @main terminates without a fault and its eight
  argument arrays end as they began.  Three of them (the aggregation matrices) are arrays of input windows, which
  the region only reads; the other five (features, the three weight matrices, the bias) are read by the host
  lines only, and no host line writes an argument.
-/
import proofs.«181993_j39402029973527_2_alg».proof.Proof.KI.Frame
import Idealize.ShloMosaic.Lib.StableHlo.Run

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines leave the arguments alone -/

theorem V_arg0 (c : Dev nD) : V m c main_arg0 = m ((c : Thread nD τ).loc main_arg0) := by
  dsimp only [V, hostOps0]; after_results <;> rfl
theorem V_arg1 (c : Dev nD) : V m c main_arg1 = m ((c : Thread nD τ).loc main_arg1) := by
  dsimp only [V, hostOps0]; after_results <;> rfl
theorem V_arg2 (c : Dev nD) : V m c main_arg2 = m ((c : Thread nD τ).loc main_arg2) := by
  dsimp only [V, hostOps0]; after_results <;> rfl
theorem V_arg3 (c : Dev nD) : V m c main_arg3 = m ((c : Thread nD τ).loc main_arg3) := by
  dsimp only [V, hostOps0]; after_results <;> rfl
theorem V_arg4 (c : Dev nD) : V m c main_arg4 = m ((c : Thread nD τ).loc main_arg4) := by
  dsimp only [V, hostOps0]; after_results <;> rfl
theorem V_arg5 (c : Dev nD) : V m c main_arg5 = m ((c : Thread nD τ).loc main_arg5) := by
  dsimp only [V, hostOps0]; after_results <;> rfl
theorem V_arg6 (c : Dev nD) : V m c main_arg6 = m ((c : Thread nD τ).loc main_arg6) := by
  dsimp only [V, hostOps0]; after_results <;> rfl
theorem V_arg7 (c : Dev nD) : V m c main_arg7 = m ((c : Thread nD τ).loc main_arg7) := by
  dsimp only [V, hostOps0]; after_results <;> rfl

/-- The arguments the region does not stage are among the buffers it leaves as found. -/
theorem rest_arg0 : main_arg0 ∈ Pipeline.restRefs sig spec0 := by decide
theorem rest_arg4 : main_arg4 ∈ Pipeline.restRefs sig spec0 := by decide
theorem rest_arg5 : main_arg5 ∈ Pipeline.restRefs sig spec0 := by decide
theorem rest_arg6 : main_arg6 ∈ Pipeline.restRefs sig spec0 := by decide
theorem rest_arg7 : main_arg7 ∈ Pipeline.restRefs sig spec0 := by decide

/-- The run with its post read at the result array and at the arguments. -/
theorem run_args :
    θ_run defs (onTc (τ := τ) (main (F := F))) ⟨m, fun _ => 0, ρ⟩ (fun r => ∀ c : Dev nD,
      r.2.mem ((c.tc : Thread nD τ).loc main_v3) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 5,
      ((h c).2 main_arg0 rest_arg0).trans (V_arg0 m c),
      ((h c).1 0).trans (((dats m 0 c).arrAt_in 0 rfl _).trans ((A_eq m c 0).trans (V_arg1 m c))),
      ((h c).1 1).trans (((dats m 0 c).arrAt_in 1 rfl _).trans ((A_eq m c 1).trans (V_arg2 m c))),
      ((h c).1 2).trans (((dats m 0 c).arrAt_in 2 rfl _).trans ((A_eq m c 2).trans (V_arg3 m c))),
      ((h c).2 main_arg4 rest_arg4).trans (V_arg4 m c),
      ((h c).2 main_arg5 rest_arg5).trans (V_arg5 m c),
      ((h c).2 main_arg6 rest_arg6).trans (V_arg6 m c),
      ((h c).2 main_arg7 rest_arg7).trans (V_arg7 m c)⟩) (run_main m ρ)

/-- The frame claim. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_args m ρ)

end Cert.KernelIdeal.Frame

end
-- ==== Proof.KI.Blocks.lean ====
/-
  The windows' blocks as parts of the arrays, and what the host lines put in the two arrays they compute.

  At point t = 4i + k the three aggregation windows hold rows 1024i.. of columns 2048k.. of their matrices, the
  projected-feature window rows 2048k.. of the 8192×96 product, the bias window the one bias row, and the result
  window covers rows 1024i.. of the result.  The block index maps are decided once over the 32 points.
-/
import proofs.«181993_j39402029973527_2_alg».proof.Proof.KI.FrameClaim
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The block index maps over the grid -/

theorem index_L0 : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
theorem index_L1 : ∀ t : Fin cfg0.N, win0_1.index t (0 : Fin 2) = t.val / 4 ∧ win0_1.index t (1 : Fin 2) = t.val % 4 :=
  (by decide +kernel : ∀ t : Fin grid0.N, win0_1.index t (0 : Fin 2) = t.val / 4 ∧ win0_1.index t (1 : Fin 2) = t.val % 4)
theorem index_L2 : ∀ t : Fin cfg0.N, win0_2.index t (0 : Fin 2) = t.val / 4 ∧ win0_2.index t (1 : Fin 2) = t.val % 4 :=
  (by decide +kernel : ∀ t : Fin grid0.N, win0_2.index t (0 : Fin 2) = t.val / 4 ∧ win0_2.index t (1 : Fin 2) = t.val % 4)
theorem index_Y : ∀ t : Fin cfg0.N, win0_3.index t (0 : Fin 2) = t.val % 4 ∧ win0_3.index t (1 : Fin 2) = 0 :=
  (by decide +kernel : ∀ t : Fin grid0.N, win0_3.index t (0 : Fin 2) = t.val % 4 ∧ win0_3.index t (1 : Fin 2) = 0)
theorem index_b : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index_out : ∀ t : Fin cfg0.N, win0_5.index t (0 : Fin 2) = t.val / 4 ∧ win0_5.index t (1 : Fin 2) = 0 :=
  (by decide +kernel : ∀ t : Fin grid0.N, win0_5.index t (0 : Fin 2) = t.val / 4 ∧ win0_5.index t (1 : Fin 2) = 0)

theorem point_lt (t : Fin cfg0.N) : t.val < 32 := lt_of_lt_of_eq t.isLt (show cfg0.N = 32 from N_0)

/-- Row p of the row tile of point t, as a row of the 8192. -/
abbrev rowOf (t : Fin cfg0.N) (p : Fin 1024) : Fin 8192 :=
  ⟨t.val / 4 * 1024 + p.val, by have := point_lt t; have := p.isLt; omega⟩
/-- Position kk of the contraction tile of point t, as a position of the 8192. -/
abbrev posOf (t : Fin cfg0.N) (kk : Fin 2048) : Fin 8192 :=
  ⟨t.val % 4 * 2048 + kk.val, by have := kk.isLt; omega⟩

/-! ## The blocks -/

theorem blkL0 (c : Dev nD) (t : Fin cfg0.N) (p : Fin 1024) (kk : Fin 2048) :
    iblk m c 0 t (ix2 p kk) = V m c main_arg1 (ix2 (rowOf t p) (posOf t kk)) := by
  unfold iblk
  show V m c main_arg1 (((cfg0.win 0).blk t).view.emb (ix2 p kk)) = _
  refine congrArg (V m c main_arg1) (funext fun a => Fin.ext ?_)
  match a with
  | ⟨0, _⟩ => show win0_0.index t 0 * 1024 + 1 * p.val = t.val / 4 * 1024 + p.val; rw [(index_L0 t).1]; omega
  | ⟨1, _⟩ => show win0_0.index t 1 * 2048 + 1 * kk.val = t.val % 4 * 2048 + kk.val; rw [(index_L0 t).2]; omega

theorem blkL1 (c : Dev nD) (t : Fin cfg0.N) (p : Fin 1024) (kk : Fin 2048) :
    iblk m c 1 t (ix2 p kk) = V m c main_arg2 (ix2 (rowOf t p) (posOf t kk)) := by
  unfold iblk
  show V m c main_arg2 (((cfg0.win 1).blk t).view.emb (ix2 p kk)) = _
  refine congrArg (V m c main_arg2) (funext fun a => Fin.ext ?_)
  match a with
  | ⟨0, _⟩ => show win0_1.index t 0 * 1024 + 1 * p.val = t.val / 4 * 1024 + p.val; rw [(index_L1 t).1]; omega
  | ⟨1, _⟩ => show win0_1.index t 1 * 2048 + 1 * kk.val = t.val % 4 * 2048 + kk.val; rw [(index_L1 t).2]; omega

theorem blkL2 (c : Dev nD) (t : Fin cfg0.N) (p : Fin 1024) (kk : Fin 2048) :
    iblk m c 2 t (ix2 p kk) = V m c main_arg3 (ix2 (rowOf t p) (posOf t kk)) := by
  unfold iblk
  show V m c main_arg3 (((cfg0.win 2).blk t).view.emb (ix2 p kk)) = _
  refine congrArg (V m c main_arg3) (funext fun a => Fin.ext ?_)
  match a with
  | ⟨0, _⟩ => show win0_2.index t 0 * 1024 + 1 * p.val = t.val / 4 * 1024 + p.val; rw [(index_L2 t).1]; omega
  | ⟨1, _⟩ => show win0_2.index t 1 * 2048 + 1 * kk.val = t.val % 4 * 2048 + kk.val; rw [(index_L2 t).2]; omega

theorem blkY (c : Dev nD) (t : Fin cfg0.N) (kk : Fin 2048) (col : Fin 96) :
    iblk m c 3 t (ix2 kk col) = V m c main_v1 (ix2 (posOf t kk) col) := by
  unfold iblk
  show V m c main_v1 (((cfg0.win 3).blk t).view.emb (ix2 kk col)) = _
  refine congrArg (V m c main_v1) (funext fun a => Fin.ext ?_)
  match a with
  | ⟨0, _⟩ => show win0_3.index t 0 * 2048 + 1 * kk.val = t.val % 4 * 2048 + kk.val; rw [(index_Y t).1]; omega
  | ⟨1, _⟩ => show win0_3.index t 1 * 96 + 1 * col.val = col.val; rw [(index_Y t).2]; omega

theorem blkB (c : Dev nD) (t : Fin cfg0.N) (q : Fin 32) :
    iblk m c 4 t (ix2 (0 : Fin 1) q) = V m c main_v2 (ix2 (0 : Fin 1) q) := by
  unfold iblk
  show V m c main_v2 (((cfg0.win 4).blk t).view.emb (ix2 (0 : Fin 1) q)) = _
  refine congrArg (V m c main_v2) (funext fun a => Fin.ext ?_)
  match a with
  | ⟨0, _⟩ => show win0_4.index t 0 * 1 + 1 * 0 = 0; rw [(index_b t).1]
  | ⟨1, _⟩ => show win0_4.index t 1 * 32 + 1 * q.val = q.val; rw [(index_b t).2]; omega

/-- Where entry (p, q) of the result window's block at point t sits in the result array. -/
theorem out_emb (t : Fin cfg0.N) (p : Fin 1024) (q : Fin 32) :
    ((cfg0.win 5).blk t).view.emb (ix2 p q) = ix2 (rowOf t p) q := by
  refine funext fun a => Fin.ext ?_
  match a with
  | ⟨0, _⟩ => show win0_5.index t 0 * 1024 + 1 * p.val = t.val / 4 * 1024 + p.val; rw [(index_out t).1]; omega
  | ⟨1, _⟩ => show win0_5.index t 1 * 32 + 1 * q.val = q.val; rw [(index_out t).2]; omega

/-! ## What the host lines computed -/

/-- The projected features: the feature matrix times the three weight matrices side by side. -/
theorem V_v1 (c : Dev nD) :
    V m c main_v1 = Host.dotGeneral dot_S8192x32_S32x96_S8192x96_1_0_0_1_n_n none (m ((c : Thread nD τ).loc main_arg0))
      (concatenate S32x96 1 [⟨S32x32, m ((c : Thread nD τ).loc main_arg4)⟩, ⟨S32x32, m ((c : Thread nD τ).loc main_arg5)⟩,
        ⟨S32x32, m ((c : Thread nD τ).loc main_arg6)⟩] concatenates_S32x32_S32x32_S32x32_S32x96_d1) := by
  dsimp only [V, hostOps0]; after_results <;> rfl

/-- The bias as one row. -/
theorem V_v2 (c : Dev nD) :
    V m c main_v2 = shapeCast S1x32 (m ((c : Thread nD τ).loc main_arg7)) shapeCasts_S32_S1x32 := by
  dsimp only [V, hostOps0]; after_results <;> rfl

end Cert.KernelIdeal.Frame

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«181993_j39402029973527_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KI.Arith.lean ====
/-
  The body's arithmetic at an entry, on the extended reals.

  The projected-feature tile has 96 columns in three bands of 32: band a holds X·W_a.  One contraction step adds to
  the running tile, at (p, q), the three partial products of the step's tiles against the three bands,
  (Σ_kk A0(p,kk)·Y(kk, q) + Σ_kk A1(p,kk)·Y(kk, 32+q)) + Σ_kk A2(p,kk)·Y(kk, 64+q); the zero tile is 0 everywhere;
  the finishing step is max(running(p,q) + bias(0,q), 0).  A change of shape to the same shape is the identity.
-/
import proofs.«181993_j39402029973527_2_alg».proof.Proof.Gen.KernelIdeal.Skeleton
import proofs.«181993_j39402029973527_2_alg».proof.Proof.LibDotRecord
import Idealize.ShloMosaic.Lib.Pipeline.Value
import Idealize.ShloMosaic.Lib.ValueIdx
import Idealize.ShloMosaic.PureOps.Ideal.Laws

noncomputable section

namespace Cert.KernelIdeal.Arith

open Cert.KernelIdeal Cert.KernelIdeal.Gen Idealize.ShloMosaic Idealize.ShloMosaic.ValueIdx

/-- Column q of band a of the 96 projected columns. -/
abbrev band (a : Fin 3) (q : Fin 32) : Fin 96 := ⟨32 * a.val + q.val, by have := a.isLt; have := q.isLt; omega⟩

/-- The zero tile is zero at every entry. -/
theorem zeroTile_apply (j : S1024x32.Idx) : k0_pay1 (F := Ideal) j = 0 := by
  unfold k0_pay1
  rw [shapeCast_self]
  exact Ideal.ofBits_zero_f32

/-- A band of the projected tile, cut out at column offset o, read at (kk, q). -/
theorem band_apply (x : FVec Ideal S2048x96 .f32) (o : ℕ) (h : S2048x96.Slices ![0, o] S2048x32) (kk : Fin 2048) (q : Fin 32)
    (col : Fin 96) (hc : col.val = o + q.val) :
    extractStridedSlice S2048x32 ![0, o] x h (ix2 kk q) = x (ix2 kk col) :=
  extractStridedSlice_apply ![0, o] x h (ix2 kk q) (ix2 kk col) (fun a => match a with
    | ⟨0, _⟩ => by show kk.val = 0 + kk.val; omega
    | ⟨1, _⟩ => hc)

/-- A 1024×2048 tile times a 2048×32 band, accumulated into zero, at (p, q). -/
theorem tileProduct_apply (x : FVec Ideal S1024x2048 .f32) (y : FVec Ideal S2048x32 .f32) (p : Fin 1024) (q : Fin 32) :
    matmul dot_S1024x2048_S2048x32_S1024x32_1_0_0_1_n_n none x y (constant (F := Ideal) S1024x32 .f32 0x00000000#32) (ix2 p q)
      = ∑ kk : Fin 2048, x (ix2 p kk) * y (ix2 kk q) :=
  DotRecord.matmul_zero_apply dot_S1024x2048_S2048x32_S1024x32_1_0_0_1_n_n rfl rfl rfl rfl rfl rfl x y none p q

/-- One contraction step at (p, q). -/
theorem sumStep_apply (x3 : Vec Ideal S2048x96 .f32) (x0 x1 x2 : Vec Ideal S1024x2048 .f32) (xs : Vec Ideal S1024x32 .f32)
    (p : Fin 1024) (q : Fin 32) :
    k0_pay2 (F := Ideal) x3 x0 x1 x2 xs (ix2 p q)
      = xs (ix2 p q) + ((∑ kk : Fin 2048, x0 (ix2 p kk) * x3 (ix2 kk (band 0 q))
          + ∑ kk : Fin 2048, x1 (ix2 p kk) * x3 (ix2 kk (band 1 q)))
          + ∑ kk : Fin 2048, x2 (ix2 p kk) * x3 (ix2 kk (band 2 q))) := by
  unfold k0_pay2
  rw [shapeCast_self, shapeCast_self, addf_apply, addf_apply, addf_apply, tileProduct_apply, tileProduct_apply, tileProduct_apply]
  have b0 : ∀ kk : Fin 2048, extractStridedSlice S2048x32 ![0, 0] x3 slices_S2048x96_o0_0_S2048x32 (ix2 kk q) = x3 (ix2 kk (band 0 q)) :=
    fun kk => band_apply x3 0 _ kk q (band 0 q) (by show 32 * 0 + q.val = 0 + q.val; omega)
  have b1 : ∀ kk : Fin 2048, extractStridedSlice S2048x32 ![0, 32] x3 slices_S2048x96_o0_32_S2048x32 (ix2 kk q) = x3 (ix2 kk (band 1 q)) :=
    fun kk => band_apply x3 32 _ kk q (band 1 q) (by show 32 * 1 + q.val = 32 + q.val; omega)
  have b2 : ∀ kk : Fin 2048, extractStridedSlice S2048x32 ![0, 64] x3 slices_S2048x96_o0_64_S2048x32 (ix2 kk q) = x3 (ix2 kk (band 2 q)) :=
    fun kk => band_apply x3 64 _ kk q (band 2 q) (by show 32 * 2 + q.val = 64 + q.val; omega)
  simp only [b0, b1, b2]

/-- The finishing step at (p, q). -/
theorem finish_apply (acc : Vec Ideal S1024x32 .f32) (x4 : Vec Ideal S1x32 .f32) (p : Fin 1024) (q : Fin 32) :
    k0_pay3 (F := Ideal) acc x4 (ix2 p q) = max (acc (ix2 p q) + x4 (ix2 (0 : Fin 1) q)) (Ideal.ofBits .f32 0x00000000#32) := by
  unfold k0_pay3
  rw [shapeCast_self, maximumf_apply, addf_apply, broadcast_apply, DotRecord.broadcastTo_1b_ab_apply]
  rfl

end Cert.KernelIdeal.Arith

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.Spec.lean ====
/-
  The aggregation layer as one function of its arguments, and the law joining the two arrangements of its sums.

  With X the 8192×32 features, L0, L1, L2 the 8192×8192 aggregation matrices, W0, W1, W2 the 32×32 weights and b
  the bias, the layer's entry (r, c) is

      max( ((Σ_n L0(r,n)·(X W0)(n,c) + Σ_n L1(r,n)·(X W1)(n,c)) + Σ_n L2(r,n)·(X W2)(n,c)) + b(c), 0 ),

  where (X W)(n,c) = Σ_j X(n,j)·W(j,c).  One program computes the three long sums whole; the other cuts the range of
  n into four blocks of 2048, forms in each block the three partial sums, adds them, and accumulates the four block
  totals from zero.  The two agree by associativity and commutativity of addition alone, so the law holds on the
  extended reals with no finiteness assumption.
-/
import Idealize.ShloMosaic.PureOps.Ideal
import Idealize.ShloMosaic.Lib.ValueIdx
import proofs.«181993_j39402029973527_2_alg».proof.Proof.LibGroupedSum

noncomputable section

namespace Aggregation

open Idealize.ShloMosaic Idealize.ShloMosaic.ValueIdx

/-- (X W)(n, c): a row of features through one weight matrix. -/
def proj (X : (⟨2, ![8192, 32]⟩ : Shape).Idx → EReal) (W : (⟨2, ![32, 32]⟩ : Shape).Idx → EReal) :
    (⟨2, ![8192, 32]⟩ : Shape).Idx → EReal :=
  fun j => ∑ k : Fin 32, X (ix2 (j 0) k) * W (ix2 k (j 1))

/-- (L Y)(r, c): one aggregation matrix applied to projected features. -/
def agg (L : (⟨2, ![8192, 8192]⟩ : Shape).Idx → EReal) (Y : (⟨2, ![8192, 32]⟩ : Shape).Idx → EReal) :
    (⟨2, ![8192, 32]⟩ : Shape).Idx → EReal :=
  fun i => ∑ n : Fin 8192, L (ix2 (i 0) n) * Y (ix2 n (i 1))

/-- The layer, entry by entry. The zero of the rectifier is kept as the float word both programs print. -/
def layer (X : (⟨2, ![8192, 32]⟩ : Shape).Idx → EReal) (L0 L1 L2 : (⟨2, ![8192, 8192]⟩ : Shape).Idx → EReal)
    (W0 W1 W2 : (⟨2, ![32, 32]⟩ : Shape).Idx → EReal) (b : (⟨1, ![32]⟩ : Shape).Idx → EReal) :
    (⟨2, ![8192, 32]⟩ : Shape).Idx → EReal :=
  fun i => max (((agg L0 (proj X W0) i + agg L1 (proj X W1) i) + agg L2 (proj X W2) i) + b (ix1 (i 1)))
    (Ideal.ofBits .f32 0x00000000#32)

/-- Position kk of contraction block s, as a position of the whole range. -/
abbrev inBlock (s : Fin 4) (kk : Fin 2048) : Fin 8192 := ⟨s.val * 2048 + kk.val, GroupedSum.group_lt (by norm_num) s kk⟩

/-- One block's total: the three partial sums over the block's 2048 positions, added left to right. -/
def blockTotal (f0 f1 f2 : Fin 8192 → EReal) (s : Fin 4) : EReal :=
  (∑ kk : Fin 2048, f0 (inBlock s kk) + ∑ kk : Fin 2048, f1 (inBlock s kk)) + ∑ kk : Fin 2048, f2 (inBlock s kk)

/-- THE LAW: the four block totals accumulated from zero are the three whole sums added left to right. -/
theorem accumulate_blocks (f0 f1 f2 : Fin 8192 → EReal) :
    ((((0 + blockTotal f0 f1 f2 0) + blockTotal f0 f1 f2 1) + blockTotal f0 f1 f2 2) + blockTotal f0 f1 f2 3)
      = (∑ n : Fin 8192, f0 n + ∑ n : Fin 8192, f1 n) + ∑ n : Fin 8192, f2 n := by
  rw [GroupedSum.sum_groups (J := 4) (B := 2048) (by norm_num) f0, GroupedSum.sum_groups (J := 4) (B := 2048) (by norm_num) f1,
    GroupedSum.sum_groups (J := 4) (B := 2048) (by norm_num) f2]
  simp only [Fin.sum_univ_four, blockTotal, inBlock, zero_add]
  abel

end Aggregation

end
-- ==== Proof.KI.HostRead.lean ====
/-
  The two arrays the host lines compute, read at an entry on the extended reals.

  The 8192×96 product's column 32a + q is the features through weight matrix a at column q: the joined weight
  matrix's column 32a + q is W_a's column q, and a host product at an entry is the sum over its contracted axis.
  The bias row's entry (0, q) is the bias at q.
-/
import proofs.«181993_j39402029973527_2_alg».proof.Proof.KI.Blocks
import proofs.«181993_j39402029973527_2_alg».proof.Proof.KI.Arith
import proofs.«181993_j39402029973527_2_alg».proof.Proof.Spec
import proofs.«181993_j39402029973527_2_alg».proof.Proof.LibDotRecord
import Idealize.ShloMosaic.Lib.Pipeline.Value

set_option maxRecDepth 16384

noncomputable section

namespace Cert.KernelIdeal.Frame

open Cert.KernelIdeal Cert.KernelIdeal.Gen Cert.KernelIdeal.Arith Aggregation
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The host's matrix product under a record with the plain axis lists, at (p, q). -/
theorem hostDot_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ .f32) (rhs : FVec Ideal ⟨2, ![K, N]⟩ .f32) (p : Fin M) (q : Fin N) :
    Host.dotGeneral d none lhs rhs (ix2 p q) = ∑ k : Fin K, lhs (ix2 p k) * rhs (ix2 k q) := by
  rw [DotRecord.eq_plain d h1 h2 h3 h4 h5 h6]
  simp only [Host.dotGeneral]
  exact Gcn.Lib.plain_dotGeneral_apply lhs rhs none _ p q

/-- The three weight matrices side by side: column 32a + q of the joined matrix is column q of matrix a. -/
theorem joined0 (W0 W1 W2 : S32x32.Idx → EReal) (h : Shape.Concatenates [S32x32, S32x32, S32x32] S32x96 1) (j q : Fin 32) :
    concatenate S32x96 1 [⟨S32x32, W0⟩, ⟨S32x32, W1⟩, ⟨S32x32, W2⟩] h (ix2 j (band 0 q)) = W0 (ix2 j q) :=
  concatenate_apply_piece (α := EReal) (t := S32x96) (1 : Fin 2) [⟨S32x32, W0⟩, ⟨S32x32, W1⟩, ⟨S32x32, W2⟩] h (ix2 j (band 0 q)) 0
    (by show (0 : ℕ) < 3; omega) S32x32 W0 rfl rfl 0 rfl (ix2 j q)
    (fun b hb => match b with | ⟨0, _⟩ => rfl | ⟨1, _⟩ => absurd rfl hb) (by show 0 + q.val = 32 * 0 + q.val; omega)
theorem joined1 (W0 W1 W2 : S32x32.Idx → EReal) (h : Shape.Concatenates [S32x32, S32x32, S32x32] S32x96 1) (j q : Fin 32) :
    concatenate S32x96 1 [⟨S32x32, W0⟩, ⟨S32x32, W1⟩, ⟨S32x32, W2⟩] h (ix2 j (band 1 q)) = W1 (ix2 j q) :=
  concatenate_apply_piece (α := EReal) (t := S32x96) (1 : Fin 2) [⟨S32x32, W0⟩, ⟨S32x32, W1⟩, ⟨S32x32, W2⟩] h (ix2 j (band 1 q)) 1
    (by show (1 : ℕ) < 3; omega) S32x32 W1 rfl rfl 32 rfl (ix2 j q)
    (fun b hb => match b with | ⟨0, _⟩ => rfl | ⟨1, _⟩ => absurd rfl hb) (by show 32 + q.val = 32 * 1 + q.val; omega)
theorem joined2 (W0 W1 W2 : S32x32.Idx → EReal) (h : Shape.Concatenates [S32x32, S32x32, S32x32] S32x96 1) (j q : Fin 32) :
    concatenate S32x96 1 [⟨S32x32, W0⟩, ⟨S32x32, W1⟩, ⟨S32x32, W2⟩] h (ix2 j (band 2 q)) = W2 (ix2 j q) :=
  concatenate_apply_piece (α := EReal) (t := S32x96) (1 : Fin 2) [⟨S32x32, W0⟩, ⟨S32x32, W1⟩, ⟨S32x32, W2⟩] h (ix2 j (band 2 q)) 2
    (by show (2 : ℕ) < 3; omega) S32x32 W2 rfl rfl 64 rfl (ix2 j q)
    (fun b hb => match b with | ⟨0, _⟩ => rfl | ⟨1, _⟩ => absurd rfl hb) (by show 64 + q.val = 32 * 2 + q.val; omega)

/-- Band a of the projected features is the features through weight matrix a. -/
theorem projected0 (c : Dev nD) (n : Fin 8192) (q : Fin 32) :
    V m c main_v1 (ix2 n (band 0 q))
      = proj (m ((c : Thread nD τ).loc main_arg0)) (m ((c : Thread nD τ).loc main_arg4)) (ix2 n q) := by
  refine (congrFun (V_v1 m c) (ix2 n (band 0 q))).trans
    ((hostDot_apply dot_S8192x32_S32x96_S8192x96_1_0_0_1_n_n rfl rfl rfl rfl rfl rfl _ _ n (band 0 q)).trans ?_)
  exact Finset.sum_congr rfl fun j _ => congrArg _ (joined0 _ _ _ _ j q)
theorem projected1 (c : Dev nD) (n : Fin 8192) (q : Fin 32) :
    V m c main_v1 (ix2 n (band 1 q))
      = proj (m ((c : Thread nD τ).loc main_arg0)) (m ((c : Thread nD τ).loc main_arg5)) (ix2 n q) := by
  refine (congrFun (V_v1 m c) (ix2 n (band 1 q))).trans
    ((hostDot_apply dot_S8192x32_S32x96_S8192x96_1_0_0_1_n_n rfl rfl rfl rfl rfl rfl _ _ n (band 1 q)).trans ?_)
  exact Finset.sum_congr rfl fun j _ => congrArg _ (joined1 _ _ _ _ j q)
theorem projected2 (c : Dev nD) (n : Fin 8192) (q : Fin 32) :
    V m c main_v1 (ix2 n (band 2 q))
      = proj (m ((c : Thread nD τ).loc main_arg0)) (m ((c : Thread nD τ).loc main_arg6)) (ix2 n q) := by
  refine (congrFun (V_v1 m c) (ix2 n (band 2 q))).trans
    ((hostDot_apply dot_S8192x32_S32x96_S8192x96_1_0_0_1_n_n rfl rfl rfl rfl rfl rfl _ _ n (band 2 q)).trans ?_)
  exact Finset.sum_congr rfl fun j _ => congrArg _ (joined2 _ _ _ _ j q)

/-- The bias row's entry (0, q) is the bias at q. -/
theorem biasRow_apply (c : Dev nD) (q : Fin 32) :
    V m c main_v2 (ix2 (0 : Fin 1) q) = m ((c : Thread nD τ).loc main_arg7) (ix1 q) := by
  rw [V_v2]
  exact (shapeCast_addUnit_apply ![32] _ _ (ix2 (0 : Fin 1) q)).trans
    (congrArg _ (funext fun a => match a with | ⟨0, _⟩ => rfl))

end Cert.KernelIdeal.Frame

end
-- ==== Proof.KI.Pieces.lean ====
/-
  What each case of the body leaves, as the body's own arithmetic.

  Every store of the body covers its whole 1024×32 buffer, so what a buffer holds afterwards is the payload of the
  last store into it, and a load that follows a store reads that store's payload.  Hence, with B0, B1, B2 the three
  aggregation tiles, B3 the projected-feature tile and B4 the bias row of the point:
    k = 0      accumulator = sum-step(B; zero tile)
    0 < k < 3  accumulator = sum-step(B; what the point before left)
    k = 3      accumulator = sum-step(B; what the point before left),  result window = finish(accumulator, B4)
  where sum-step and finish are the skeleton's second and third payloads and the zero tile its first.
-/
import proofs.«181993_j39402029973527_2_alg».proof.Proof.KI.Frame
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → Nat) = fun _ => 0 := by funext a; fin_cases a <;> rfl

/-- Reading back, through the accumulator's view, contents that were written whole. -/
theorem acc_back (h : (Memref.whole cc0_scratch0 : Memref sig .tc .vmem S1024x32 .f32).IsWhole) (xs : Vec F S1024x32 .f32) :
    View.read (Elt F) (View.whole cc0_scratch0) (h.unread xs) = xs := h.read_unread xs

theorem accMiddle_eq (c : Dev nD) (t : Fin cfg0.N) (h0 : ¬t.val % 4 = 0) (h1 : ¬t.val % 4 = 3) (xs : Vec F S1024x32 .f32) :
    accMiddle m c t h0 h1 xs = k0_pay2 (iblk m c 3 t) (iblk m c 0 t) (iblk m c 1 t) (iblk m c 2 t) xs := by
  unfold accMiddle
  rw [View.read_writes_eq_canon _ _ _ (cover_middle m c t h0 h1 xs)]
  unfold middleAt runMiddle
  dsimp only
  sl_unfold_words
  rw [View.canon_unit_zero zero_offsets]
  simp only [View.readAt_eq_ld, Memref.IsWhole.read_unread, acc_back, View.ld_unit_zero (S := S1024x32) zero_offsets,
    View.ld_unit_zero (S := S1024x2048) zero_offsets, View.ld_unit_zero (S := S2048x96) zero_offsets]

theorem accFirst_eq (c : Dev nD) (t : Fin cfg0.N) (h0 : t.val % 4 = 0) :
    accFirst m c t h0 = k0_pay2 (iblk m c 3 t) (iblk m c 0 t) (iblk m c 1 t) (iblk m c 2 t) (k0_pay1 (F := F)) := by
  unfold accFirst
  rw [View.read_writes_eq_canon _ _ _ (cover_first m c t h0)]
  unfold firstAt runFirst
  dsimp only
  sl_unfold_words
  rw [View.canon_cons_unit_zero zero_offsets]
  simp only [View.readAt_eq_ld, Memref.IsWhole.read_unread, View.readCov_unit_zero (S := S1024x32) _ zero_offsets,
    View.ld_unit_zero (S := S1024x32) zero_offsets,
    View.ld_unit_zero (S := S1024x2048) zero_offsets, View.ld_unit_zero (S := S2048x96) zero_offsets]

theorem accLast_eq (c : Dev nD) (t : Fin cfg0.N) (h1 : t.val % 4 = 3) (xs : Vec F S1024x32 .f32) :
    accLast m c t h1 xs = k0_pay2 (iblk m c 3 t) (iblk m c 0 t) (iblk m c 1 t) (iblk m c 2 t) xs := by
  unfold accLast
  rw [View.read_writes_eq_canon _ _ _ (cover_last_acc m c t h1 xs)]
  unfold lastAt runLast
  dsimp only
  sl_unfold_words
  rw [View.canon_unit_zero zero_offsets]
  simp only [View.readAt_eq_ld, Memref.IsWhole.read_unread, acc_back, View.ld_unit_zero (S := S1024x32) zero_offsets,
    View.ld_unit_zero (S := S1024x2048) zero_offsets, View.ld_unit_zero (S := S2048x96) zero_offsets]

theorem outLast_eq (c : Dev nD) (t : Fin cfg0.N) (h1 : t.val % 4 = 3) (xs : Vec F S1024x32 .f32) :
    outLast m c t h1 xs
      = k0_pay3 (k0_pay2 (iblk m c 3 t) (iblk m c 0 t) (iblk m c 1 t) (iblk m c 2 t) xs) (iblk m c 4 t) := by
  unfold outLast
  rw [View.read_writes_eq_canon _ _ _ (cover_last_out m c t h1 xs)]
  unfold lastAt runLast
  dsimp only
  sl_unfold_words
  rw [View.canon_unit_zero zero_offsets]
  simp only [View.readAt_eq_ld, Memref.IsWhole.read_unread, acc_back, View.readCov_unit_zero (S := S1024x32) _ zero_offsets,
    View.ld_unit_zero (S := S1024x32) zero_offsets, View.ld_unit_zero (S := S1x32) zero_offsets,
    View.ld_unit_zero (S := S1024x2048) zero_offsets, View.ld_unit_zero (S := S2048x96) zero_offsets]

end Cert.KernelIdeal.Frame

end
-- ==== Proof.KI.Unrolled.lean ====
/-
  The result window at the last point of a row tile, unrolled.

  A row tile's four points are consecutive.  Going back from the last: the two middle points each applied one
  contraction step to what the point before left, and the first applied one to the zero tile.  So the window holds
  finish(step₃(step₂(step₁(step₀(zero tile)))), bias row), each step over its own point's tiles.
-/
import proofs.«181993_j39402029973527_2_alg».proof.Proof.KI.Pieces

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before t. -/
abbrev before (t : Fin cfg0.N) : Fin cfg0.N := ⟨t.val - 1, Nat.lt_of_le_of_lt (Nat.sub_le _ _) t.isLt⟩

/-- The body's contraction step over the tiles of point s, applied to a running tile. -/
abbrev step (c : Dev nD) (s : Fin cfg0.N) (xs : Vec F S1024x32 .f32) : Vec F S1024x32 .f32 :=
  k0_pay2 (iblk m c 3 s) (iblk m c 0 s) (iblk m c 1 s) (iblk m c 2 s) xs

theorem window_at_last (c : Dev nD) (t : Fin cfg0.N) (h1 : t.val % 4 = 3) :
    (contents m c t.val t.isLt).1
      = k0_pay3 (step m c t (step m c (before t) (step m c (before (before t))
          (step m c (before (before (before t))) (k0_pay1 (F := F)))))) (iblk m c 4 t) := by
  have hb1 : (before t).val = t.val - 1 := rfl
  have hb2 : (before (before t)).val = t.val - 2 := by show t.val - 1 - 1 = t.val - 2; omega
  have hb3 : (before (before (before t))).val = t.val - 3 := by show t.val - 1 - 1 - 1 = t.val - 3; omega
  have e3 : (contents m c (before (before (before t))).val (before (before (before t))).isLt).2
      = step m c (before (before (before t))) (k0_pay1 (F := F)) := by
    rw [contents_first m c (before (before (before t))) (by rw [hb3]; omega), accFirst_eq]
  have e2 : (contents m c (before (before t)).val (before (before t)).isLt).2
      = step m c (before (before t)) (step m c (before (before (before t))) (k0_pay1 (F := F))) := by
    rw [contents_middle m c (before (before t)) (by rw [hb2]; omega) (by rw [hb2]; omega), accMiddle_eq]
    show step m c (before (before t)) (prevAcc m c (before (before t))) = _
    exact congrArg (step m c (before (before t))) e3
  have e1 : (contents m c (before t).val (before t).isLt).2
      = step m c (before t) (step m c (before (before t)) (step m c (before (before (before t))) (k0_pay1 (F := F)))) := by
    rw [contents_middle m c (before t) (by rw [hb1]; omega) (by rw [hb1]; omega), accMiddle_eq]
    show step m c (before t) (prevAcc m c (before t)) = _
    exact congrArg (step m c (before t)) e2
  rw [contents_last m c t h1, outLast_eq]
  show k0_pay3 (step m c t (prevAcc m c t)) (iblk m c 4 t) = _
  exact congrArg (fun a => k0_pay3 (step m c t a) (iblk m c 4 t)) e1

end Cert.KernelIdeal.Frame

end
-- ==== Proof.KI.Final.lean ====
/-
  The kernel's result array is the layer.

  The result window is written back at the last point of each row tile.  What it holds there, at (p, q), is
  max(((((0 + T₀) + T₁) + T₂) + T₃) + bias(q), 0) with T_k the block total of contraction block k for row
  r = 1024·i + p: the three partial sums of L_a(r, n)·(X W_a)(n, q) over the block's 2048 positions n.  By the
  accumulation law that is the layer's entry (r, q).  The eight row tiles' blocks cover the 8192 rows, so the
  whole result array is the layer.
-/
import proofs.«181993_j39402029973527_2_alg».proof.Proof.KI.HostRead
import proofs.«181993_j39402029973527_2_alg».proof.Proof.KI.Unrolled

set_option maxRecDepth 16384

noncomputable section

namespace Cert.KernelIdeal.Frame

open Cert.KernelIdeal Cert.KernelIdeal.Gen Cert.KernelIdeal.Arith Aggregation
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The layer of the launch contents of core c's eight argument arrays. -/
abbrev layerOf (c : Dev nD) : S8192x32.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- The term of row r, column q at position n of one long sum: L(r, n)·Y(n, q). -/
abbrev longTerm (L : S8192x8192.Idx → EReal) (Y : S8192x32.Idx → EReal) (r : Fin 8192) (q : Fin 32) (n : Fin 8192) : EReal :=
  L (ix2 r n) * Y (ix2 n q)
/-- Adding a bias entry and rectifying. -/
abbrev rectifiedBy (bv : EReal) (s : EReal) : EReal := max (s + bv) (Ideal.ofBits .f32 0x00000000#32)

/-- What the last point of a row tile writes back is the layer's block there. -/
theorem flushed_layer (c : Dev nD) (t : Fin cfg0.N) (hf : (cfg0.win 5).flush t = true) :
    (dats m 0 c).flushed 5 t = ((cfg0.win 5).blk t).view.read (Elt Ideal) (layerOf m c) := by
  have h1 : t.val % 4 = 3 := (flush0_5 t).mp hf
  show (cfg0.win 5).cut (grid0.coords t) ((dats m 0 c).after 5 t) = _
  rw [after5, window_at_last m c t h1]
  funext y
  obtain ⟨p, q, rfl⟩ : ∃ (p : Fin 1024) (q : Fin 32), y = ix2 p q := ⟨y 0, y 1, eq_ix2 y⟩
  show k0_pay3 (F := Ideal) _ _ (ix2 p q) = layerOf m c (((cfg0.win 5).blk t).view.emb (ix2 p q))
  rw [out_emb t p q, finish_apply]
  unfold step
  rw [sumStep_apply, sumStep_apply, sumStep_apply, sumStep_apply, zeroTile_apply]
  simp only [blkL0, blkL1, blkL2, blkY, blkB]
  -- the four points of the row tile share its rows, and are its four contraction blocks in order
  have r1 : rowOf (before t) p = rowOf t p := Fin.ext (by show (t.val - 1) / 4 * 1024 + p.val = t.val / 4 * 1024 + p.val; omega)
  have r2 : rowOf (before (before t)) p = rowOf t p :=
    Fin.ext (by show (t.val - 1 - 1) / 4 * 1024 + p.val = t.val / 4 * 1024 + p.val; omega)
  have r3 : rowOf (before (before (before t))) p = rowOf t p :=
    Fin.ext (by show (t.val - 1 - 1 - 1) / 4 * 1024 + p.val = t.val / 4 * 1024 + p.val; omega)
  have c3 : ∀ kk : Fin 2048, posOf t kk = inBlock 3 kk :=
    fun kk => Fin.ext (by show t.val % 4 * 2048 + kk.val = 3 * 2048 + kk.val; omega)
  have c2 : ∀ kk : Fin 2048, posOf (before t) kk = inBlock 2 kk :=
    fun kk => Fin.ext (by show (t.val - 1) % 4 * 2048 + kk.val = 2 * 2048 + kk.val; omega)
  have c1 : ∀ kk : Fin 2048, posOf (before (before t)) kk = inBlock 1 kk :=
    fun kk => Fin.ext (by show (t.val - 1 - 1) % 4 * 2048 + kk.val = 1 * 2048 + kk.val; omega)
  have c0 : ∀ kk : Fin 2048, posOf (before (before (before t))) kk = inBlock 0 kk :=
    fun kk => Fin.ext (by show (t.val - 1 - 1 - 1) % 4 * 2048 + kk.val = 0 * 2048 + kk.val; omega)
  simp only [r1, r2, r3, c0, c1, c2, c3]
  -- the three bands of the projected features, as functions of (n, q)
  have hY0 : (fun j : S8192x32.Idx => V m c main_v1 (ix2 (j 0) (band 0 (j 1)))) = proj (m ((c : Thread nD τ).loc main_arg0)) (m ((c : Thread nD τ).loc main_arg4)) :=
    funext fun j => (projected0 m c (j 0) (j 1)).trans (congrArg _ (eq_ix2 j).symm)
  have hY1 : (fun j : S8192x32.Idx => V m c main_v1 (ix2 (j 0) (band 1 (j 1)))) = proj (m ((c : Thread nD τ).loc main_arg0)) (m ((c : Thread nD τ).loc main_arg5)) :=
    funext fun j => (projected1 m c (j 0) (j 1)).trans (congrArg _ (eq_ix2 j).symm)
  have hY2 : (fun j : S8192x32.Idx => V m c main_v1 (ix2 (j 0) (band 2 (j 1)))) = proj (m ((c : Thread nD τ).loc main_arg0)) (m ((c : Thread nD τ).loc main_arg6)) :=
    funext fun j => (projected2 m c (j 0) (j 1)).trans (congrArg _ (eq_ix2 j).symm)
  refine (congrArg (rectifiedBy (V m c main_v2 (ix2 (0 : Fin 1) q)))
    (accumulate_blocks
      (longTerm (V m c main_arg1) (fun j : S8192x32.Idx => V m c main_v1 (ix2 (j 0) (band 0 (j 1)))) (rowOf t p) q)
      (longTerm (V m c main_arg2) (fun j : S8192x32.Idx => V m c main_v1 (ix2 (j 0) (band 1 (j 1)))) (rowOf t p) q)
      (longTerm (V m c main_arg3) (fun j : S8192x32.Idx => V m c main_v1 (ix2 (j 0) (band 2 (j 1)))) (rowOf t p) q))).trans ?_
  rw [V_arg1 m c, V_arg2 m c, V_arg3 m c, hY0, hY1, hY2, biasRow_apply m c q]
  rfl

/-- An index of the result array is in point t's block iff each coordinate is in the block's range. -/
theorem mem_block (t : Fin cfg0.N) (i : S8192x32.Idx) :
    i ∈ ((cfg0.win 5).blk t).view.set ↔ ∀ a : Fin 2, win0_5.index t a * S1024x32.size a ≤ (i a).val
      ∧ (i a).val < win0_5.index t a * S1024x32.size a + S1024x32.size a := by
  show i ∈ ((View.whole main_v3).slice (win0_5.rect t)).set ↔ _
  rw [View.set_slice_whole, Rect.mem_set_unit]
  exact Iff.rfl

/-- Every row of the result is in the block written back at the last point of its row tile. -/
theorem covered (i : S8192x32.Idx) :
    ∃ t : Fin cfg0.N, (cfg0.win 5).flush t = true ∧ i ∈ ((cfg0.win 5).blk t).view.set := by
  have hi0 : (i 0).val < 8192 := (i 0).isLt
  have hi1 : (i 1).val < 32 := (i 1).isLt
  have hN : cfg0.N = 32 := N_0
  let t : Fin cfg0.N := ⟨4 * ((i 0).val / 1024) + 3, by omega⟩
  have ht : t.val = 4 * ((i 0).val / 1024) + 3 := rfl
  refine ⟨t, (flush0_5 t).mpr (by rw [ht]; omega), ?_⟩
  rw [mem_block]
  intro a
  match a with
  | ⟨0, _⟩ =>
    show win0_5.index t 0 * 1024 ≤ (i 0).val ∧ (i 0).val < win0_5.index t 0 * 1024 + 1024
    rw [(index_out t).1, ht]; omega
  | ⟨1, _⟩ =>
    show win0_5.index t 1 * 32 ≤ (i 1).val ∧ (i 1).val < win0_5.index t 1 * 32 + 32
    rw [(index_out t).2]; omega

/-- The result array after the run. -/
theorem final (c : Dev nD) : (dats m 0 c).arrAt 5 cfg0.N = layerOf m c :=
  (dats m 0 c).arrAt_eq_of_cover 5 (layerOf m c) (fun t hf => flushed_layer m c t hf) covered

/-- The kernel's run, read: the result array holds the layer of the arguments, which are unchanged. -/
theorem run_value :
    θ_run defs (onTc (τ := τ) (main (F := Ideal))) ⟨m, fun _ => 0, ρ⟩ (fun r => ∀ c : Dev nD,
      r.2.mem ((c.tc : Thread nD τ).loc main_v3) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final m c), (h c).2⟩) (run_args m ρ)

end Cert.KernelIdeal.Frame

end
-- ==== Proof.RefValue.lean ====
/-
  The reference program's result is the layer.

  Its run ends with the result array at the composed term of its fourteen host operations; read one operation at a
  time, entry (r, c) of that term is max(((Σ_n L0(r,n)·(X W0)(n,c) + Σ_n L1(r,n)·(X W1)(n,c)) + Σ_n L2(r,n)·(X W2)(n,c))
  + b(c), 0): each of the six matrix products is a sum over its contracted axis, the bias is broadcast down the rows,
  the rectifier compares with a broadcast zero.  What is left to say is that the index functions the products read
  their operands at are (r, n), (n, c), (n, j), (j, c), and the bias's is c.
-/
import proofs.«181993_j39402029973527_2_alg».proof.Proof.Gen.ReferenceIdeal.Read
import proofs.«181993_j39402029973527_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Aggregation

/-! ## Where each product reads its operands -/

theorem big_l1 (i : S8192x32.Idx) (k : Fin 8192) : lidx_main_v1 i k = ix2 (i 0) k :=
  funext fun a => Fin.ext (by match a with | ⟨0, _⟩ => rfl | ⟨1, _⟩ => rfl)
theorem big_r1 (i : S8192x32.Idx) (k : Fin 8192) : ridx_main_v1 i k = ix2 k (i 1) :=
  funext fun a => Fin.ext (by match a with | ⟨0, _⟩ => rfl | ⟨1, _⟩ => rfl)
theorem big_l3 (i : S8192x32.Idx) (k : Fin 8192) : lidx_main_v3 i k = ix2 (i 0) k :=
  funext fun a => Fin.ext (by match a with | ⟨0, _⟩ => rfl | ⟨1, _⟩ => rfl)
theorem big_r3 (i : S8192x32.Idx) (k : Fin 8192) : ridx_main_v3 i k = ix2 k (i 1) :=
  funext fun a => Fin.ext (by match a with | ⟨0, _⟩ => rfl | ⟨1, _⟩ => rfl)
theorem big_l6 (i : S8192x32.Idx) (k : Fin 8192) : lidx_main_v6 i k = ix2 (i 0) k :=
  funext fun a => Fin.ext (by match a with | ⟨0, _⟩ => rfl | ⟨1, _⟩ => rfl)
theorem big_r6 (i : S8192x32.Idx) (k : Fin 8192) : ridx_main_v6 i k = ix2 k (i 1) :=
  funext fun a => Fin.ext (by match a with | ⟨0, _⟩ => rfl | ⟨1, _⟩ => rfl)
theorem small_l0 (j : S8192x32.Idx) (k : Fin 32) : lidx_main_v0 j k = ix2 (j 0) k :=
  funext fun a => Fin.ext (by match a with | ⟨0, _⟩ => rfl | ⟨1, _⟩ => rfl)
theorem small_r0 (j : S8192x32.Idx) (k : Fin 32) : ridx_main_v0 j k = ix2 k (j 1) :=
  funext fun a => Fin.ext (by match a with | ⟨0, _⟩ => rfl | ⟨1, _⟩ => rfl)
theorem small_l2 (j : S8192x32.Idx) (k : Fin 32) : lidx_main_v2 j k = ix2 (j 0) k :=
  funext fun a => Fin.ext (by match a with | ⟨0, _⟩ => rfl | ⟨1, _⟩ => rfl)
theorem small_r2 (j : S8192x32.Idx) (k : Fin 32) : ridx_main_v2 j k = ix2 k (j 1) :=
  funext fun a => Fin.ext (by match a with | ⟨0, _⟩ => rfl | ⟨1, _⟩ => rfl)
theorem small_l5 (j : S8192x32.Idx) (k : Fin 32) : lidx_main_v5 j k = ix2 (j 0) k :=
  funext fun a => Fin.ext (by match a with | ⟨0, _⟩ => rfl | ⟨1, _⟩ => rfl)
theorem small_r5 (j : S8192x32.Idx) (k : Fin 32) : ridx_main_v5 j k = ix2 k (j 1) :=
  funext fun a => Fin.ext (by match a with | ⟨0, _⟩ => rfl | ⟨1, _⟩ => rfl)
theorem bias_idx (i : S8192x32.Idx) : idx_main_v8 (idx_main_v9 i) = ix1 (i 1) :=
  funext fun a => Fin.ext (by match a with | ⟨0, _⟩ => rfl)

/-! ## The result -/

theorem result_eq (x0 : (⟨S8192x32, .f32⟩ : BufTy).Contents (Elt Ideal)) (x1 x2 x3 : (⟨S8192x8192, .f32⟩ : BufTy).Contents (Elt Ideal))
    (x4 x5 x6 : (⟨S32x32, .f32⟩ : BufTy).Contents (Elt Ideal)) (x7 : (⟨S32, .f32⟩ : BufTy).Contents (Elt Ideal)) :
    val_main_v11 (F := Ideal) x0 x1 x2 x3 x4 x5 x6 x7 = layer x0 x1 x2 x3 x4 x5 x6 x7 := by
  have e0 : val_main_v0 (F := Ideal) x0 x4 = proj x0 x4 := by
    funext j; rw [val_main_v0_apply]; simp only [small_l0, small_r0]; rfl
  have e2 : val_main_v2 (F := Ideal) x0 x5 = proj x0 x5 := by
    funext j; rw [val_main_v2_apply]; simp only [small_l2, small_r2]; rfl
  have e5 : val_main_v5 (F := Ideal) x0 x6 = proj x0 x6 := by
    funext j; rw [val_main_v5_apply]; simp only [small_l5, small_r5]; rfl
  funext i
  rw [val_main_v11_apply, val_main_v10_apply, val_main_v7_apply, val_main_v4_apply, val_main_v1_apply, val_main_v3_apply,
    val_main_v6_apply, val_main_v9_apply, val_main_v8_apply, val_main_call0_v0_apply, val_main_call0_cst_apply, e0, e2, e5]
  simp only [big_l1, big_r1, big_l3, big_r3, big_l6, big_r6, bias_idx]
  rfl

end Cert.ReferenceIdeal.RefValue

end
-- ==== Proof.lean ====
/-
  The aggregation layer  out = max(L0·(X W0) + L1·(X W1) + L2·(X W2) + bias, 0)  computed two ways.

  The kernel forms X·[W0 W1 W2] once on the host, then walks an 8 × 4 grid: for each tile of 1024 rows it accumulates,
  over four contraction blocks of 2048, the three partial products of the aggregation tiles against the three bands
  of the projected features, and at the last block adds the bias, rectifies and writes the rows back.  The
  reference computes the three whole products and adds them.  On the extended reals the two results are equal
  entry by entry: a sum over 8192 positions is the sum of its four blocks' sums, and sums may be regrouped — no
  finiteness of the inputs is needed, so the precondition is never opened.

  Frames: each program terminates without a fault and leaves its eight arguments as they were.  For the kernel (at
  the word level and on the extended reals alike) this is the pipeline's frame theorem applied to an invariant that
  tracks the accumulator between grid points; for the reference it is its run with the result dropped.  The
  idealization rewrote nothing, so there is nothing to preserve.
-/
import proofs.«181993_j39402029973527_2_alg».proof.Defs
import proofs.«181993_j39402029973527_2_alg».proof.Proof.Gen.Kernel
import proofs.«181993_j39402029973527_2_alg».proof.Proof.Gen.KernelIdeal
import proofs.«181993_j39402029973527_2_alg».proof.Proof.Gen.ReferenceIdeal
import proofs.«181993_j39402029973527_2_alg».proof.Proof.Gen.Pre_finite_inputs
import proofs.«181993_j39402029973527_2_alg».proof.Proof.Gen.ReferenceIdeal.Run
import proofs.«181993_j39402029973527_2_alg».proof.Proof.K.FrameClaim
import proofs.«181993_j39402029973527_2_alg».proof.Proof.KI.Final
import proofs.«181993_j39402029973527_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame m ρ

theorem frame_ideal : Cert.frame_KernelIdeal := fun m ρ _ => Cert.KernelIdeal.Frame.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the (agreeing) arguments in their result arrays. -/
theorem algebraic : Cert.algebraic_KernelIdeal_ReferenceIdeal := by
  intro m ρ m' ρ' _ hagree
  refine ⟨fun c => Cert.KernelIdeal.Frame.layerOf m c, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
